-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S1x16 : Shape := ⟨2, ![1, 16]⟩
abbrev S1x1 : Shape := ⟨2, ![1, 1]⟩
abbrev S100000x16 : Shape := ⟨2, ![100000, 16]⟩
abbrev S10000x128 : Shape := ⟨2, ![10000, 128]⟩
abbrev S10000x1 : Shape := ⟨2, ![10000, 1]⟩
abbrev S10000x16 : Shape := ⟨2, ![10000, 16]⟩
abbrev S3300000x16 : Shape := ⟨2, ![3300000, 16]⟩
abbrev S10000 : Shape := ⟨1, ![10000]⟩

abbrev nBuf : Space → Nat
  | .hbm => 62
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S1x16, .f32⟩
  | .hbm, ⟨32, _⟩ => ⟨S1x1, .f32⟩
  | .hbm, ⟨33, _⟩ => ⟨S100000x16, .f32⟩
  | .hbm, ⟨34, _⟩ => ⟨S_, .i32⟩
  | .hbm, ⟨35, _⟩ => ⟨S3300000, .i32⟩
  | .hbm, ⟨36, _⟩ => ⟨S3300000, .i1⟩
  | .hbm, ⟨37, _⟩ => ⟨S_, .i32⟩
  | .hbm, ⟨38, _⟩ => ⟨S3300000, .i32⟩
  | .hbm, ⟨39, _⟩ => ⟨S3300000, .i32⟩
  | .hbm, ⟨40, _⟩ => ⟨S3300000, .i32⟩
  | .hbm, ⟨41, _⟩ => ⟨S3300000x1, .i32⟩
  | .hbm, ⟨42, _⟩ => ⟨S3300000x16, .f32⟩
  | .hbm, ⟨43, _⟩ => ⟨S_, .f32⟩
  | .hbm, ⟨44, _⟩ => ⟨S100000x16, .f32⟩
  | .hbm, ⟨45, _⟩ => ⟨S3300000x1, .i32⟩
  | .hbm, ⟨46, _⟩ => ⟨S100000x16, .f32⟩
  | .hbm, ⟨47, _⟩ => ⟨S100000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x1, .f32⟩
  | .hbm, ⟨57, _⟩ => ⟨S_, .f32⟩
  | .hbm, ⟨58, _⟩ => ⟨S100000x1, .f32⟩
  | .hbm, ⟨59, _⟩ => ⟨S3300000x1, .i32⟩
  | .hbm, ⟨60, _⟩ => ⟨S100000x1, .f32⟩
  | .hbm, ⟨61, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x1, .f32⟩
  | .local _ .vmem, ⟨4, _⟩ => ⟨S10000x1, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | .local _ .vmem, ⟨9, _⟩ => ⟨S10000x1, .f32⟩
  | .local _ .vmem, ⟨10, _⟩ => ⟨S10000x1, .f32⟩
  | .local _ .vmem, ⟨11, _⟩ => ⟨S1x16, .f32⟩
  | .local _ .vmem, ⟨12, _⟩ => ⟨S16x1, .f32⟩
  | .local _ .vmem, ⟨13, _⟩ => ⟨S10000x1, .f32⟩
  | .local _ .vmem, ⟨14, _⟩ => ⟨S10000x1, .f32⟩
  | .local _ .vmem, ⟨15, _⟩ => ⟨S10000x1, .f32⟩
  | .local _ .vmem, ⟨16, _⟩ => ⟨S10000x1, .f32⟩
  | .local _ .vmem, ⟨17, _⟩ => ⟨S10000x1, .f32⟩
  | .local _ .vmem, ⟨18, _⟩ => ⟨S10000x1, .f32⟩
  | .local _ .vmem, ⟨19, _⟩ => ⟨S1x1, .f32⟩
  | .local _ .vmem, ⟨20, _⟩ => ⟨S10000x1, .f32⟩
  | .local _ .vmem, ⟨21, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  shapeCasts_S16_S1x16 : S16.ShapeCasts S1x16
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  bcast_S_S100000x16 : S_.BroadcastsInDim S100000x16 (![] : Fin 0 → Fin S100000x16.rank)
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  bcast_S_S100000x1 : S_.BroadcastsInDim S100000x1 (![] : Fin 0 → Fin S100000x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  reduces_S10000x1_S10000 : S10000x1.Reduces [1] S10000
  shapeCasts_S10000_S10000x1 : S10000.ShapeCasts S10000x1
  scatter_S100000_S3300000x1_S3300000_n_0_0_1_wf : ScatterDims.WF S100000 S3300000x1 S3300000 [] [0] [0] 1
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x1_S10000x1_1_0_0_1_n_n_wf : DotDims.WF S10000x16 S16x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S100000x16.size a
  hwx0_3 : ∀ i : grid0.Coords, EltTy.bits .f32 = 32 ∨ (Rect.block (s := S100000x16) S10000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x1.size a ≤ S16x1.size a
  hwx1_3 : ∀ i : grid1.Coords, EltTy.bits .f32 = 32 ∨ (Rect.block (s := S16x1) S16x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x1.size a ≤ S100000x1.size a
  hwx1_4 : ∀ i : grid1.Coords, EltTy.bits .f32 = 32 ∨ (Rect.block (s := S100000x1) S10000x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x1.size a ≤ S100000x1.size a
  hwx2_0 : ∀ i : grid2.Coords, EltTy.bits .f32 = 32 ∨ (Rect.block (s := S100000x1) S10000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S10000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S10000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x1, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x1, .f32⟩
  | .hbm, ⟨82, _⟩ => ⟨S3300000x1, .f32⟩
  | .hbm, ⟨83, _⟩ => ⟨S3300000x1, .f32⟩
  | .hbm, ⟨84, _⟩ => ⟨S_, .f32⟩
  | .hbm, ⟨85, _⟩ => ⟨S100000x1, .f32⟩
  | .hbm, ⟨86, _⟩ => ⟨S3300000x1, .i32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x1, .f32⟩
  | .hbm, ⟨98, _⟩ => ⟨S100000x1, .f32⟩
  | .hbm, ⟨99, _⟩ => ⟨S_, .f32⟩
  | .hbm, ⟨100, _⟩ => ⟨S100000, .f32⟩
  | .hbm, ⟨101, _⟩ => ⟨S100000x1, .f32⟩
  | .hbm, ⟨102, _⟩ => ⟨S100000x1, .f32⟩
  | .hbm, ⟨103, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_cst_1 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x1_0 : S100000.BroadcastsInDim S100000x1 (![0] : Fin 1 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.KernelRun.lean ====
/-
  The idealized kernel's run, with every buffer named at its end.

  The program is three kernel regions among stretches of host operations. Its run, region by region, leaves every
  buffer of the device at the contents the fold through the program gives it: a host stretch applies its operations to
  the contents before it, a region leaves each of its arrays at what its blocks' write-backs make of it and every other
  buffer as it found it. The statement here keeps ALL of that final valuation in the post (the frame claim keeps only
  the argument arrays), so that the result array can be read off it.
-/
import proofs.«159109_j29265907155119_2_alg».proof.Proof.Gen.KernelIdeal.Frame

set_option maxRecDepth 16384

noncomputable section

namespace Cert.KernelIdeal.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in every final state each buffer of
    each device that is not scoped to a region holds the contents the fold through the program ends at. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Gen.Whole

end
-- ==== Proof.LibReal.lean ====
/-
  Extended reals that are real numbers.

  The extended reals are not a ring: distributivity, cancellation and moving a sign across a sum fail at `⊤ + ⊥`. A
  comparison of two arrangements of one real computation is therefore made on entries known to be real, and this file
  keeps the book: the predicate "is a real number", its closure under the arithmetic operations and finite sums, the
  coercion of a finite sum, the fact that `tanh` of ANY extended real is real, and negation pulled out of a sum of reals.
-/
import Mathlib.Algebra.BigOperators.Fin
import Mathlib.Tactic.NormNum
import Idealize.ShloMosaic.PureOps.Ideal

noncomputable section

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.one : IsReal (1 : EReal) := ⟨1, EReal.coe_one.symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i, IsReal (f i)) : IsReal (∑ i ∈ s, f i) := by
  choose r hr using h
  exact ⟨∑ i ∈ s, r i, by rw [coe_sum]; exact Finset.sum_congr rfl fun i _ => hr i⟩

/-- `tanh` of any extended real is a real number: `∓1` at the infinities. -/
theorem IsReal.tanh (x : EReal) : IsReal (Ideal.tanh x) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- Negation comes out of a finite sum of REAL terms. -/
theorem sum_neg_of_real {ι : Type} (s : Finset ι) (f : ι → EReal) (h : ∀ i, IsReal (f i)) :
    ∑ i ∈ s, -(f i) = -(∑ i ∈ s, f i) := by
  choose r hr using h
  have e : f = fun i => (r i : EReal) := funext hr
  subst e
  simp only [← EReal.coe_neg, ← coe_sum]
  rw [Finset.sum_neg_distrib]

end Cert.LibReal

end
-- ==== Proof.LibAllReal.lean ====
/-
  Arrays of extended reals all of whose entries are real numbers.

  Over the extended reals a graph convolution is a composition of entrywise products, sums and maxima, of selections,
  of re-layouts (broadcasts, reshapes, gathers), and of finite sums (matrix products, scatter-adds, row sums). Each of
  these sends arrays of REAL entries to arrays of real entries; the one operation here that can leave the reals, the
  reciprocal square root, is applied to a maximum with 1, which is a real number at least 1. The last step, a
  log-softmax along an axis of extent one, is (h - M) - log (0 + exp (h - M)) with M the row's maximum, and at a real
  difference d this is d - log (exp d) = 0.
-/
import proofs.«159109_j29265907155119_2_alg».proof.Proof.LibReal
import Idealize.ShloMosaic.Lib.ValueIdx
import Idealize.ShloMosaic.Lib.Pipeline.Value
import Idealize.ShloMosaic.PureOps.Ideal.Laws

noncomputable section

namespace Cert.RealOps

open Idealize.ShloMosaic Idealize.ShloMosaic.ValueIdx Cert.LibReal

/-- Every entry of the array is a real number. -/
def AllReal {s : Shape} (v : s.Idx → EReal) : Prop := ∀ i, IsReal (v i)

/-! ## Scalars -/

theorem isReal_max {x y : EReal} (hx : IsReal x) (hy : IsReal y) : IsReal (max x y) := by
  rcases max_choice x y with h | h <;> rw [h] <;> assumption

theorem isReal_zero : IsReal (0 : EReal) := ⟨0, EReal.coe_zero.symm⟩

/-- The word of 0.0 is 0. -/
theorem zero_word : Ideal.ofBits .f32 0x00000000#32 = (0 : EReal) := Ideal.ofBits_zero_f32

/-- The word of 1.0 is 1. -/
theorem one_word : Ideal.ofBits .f32 0x3F800000#32 = (1 : EReal) := by
  simp [Ideal.ofBits, Ideal.ieee, -EReal.coe_mul]; norm_num

/-- The word 0xFF800000 is -∞. -/
theorem ninf_word : Ideal.ofBits .f32 0xFF800000#32 = (⊥ : EReal) := by simp [Ideal.ofBits, Ideal.ieee]

/-- The reciprocal square root of a positive real is a real number. -/
theorem rsqrt_real_of_pos {r : ℝ} (h : 0 < r) : IsReal (Ideal.rsqrt (r : EReal)) := by
  rw [Ideal.rsqrt_coe, if_neg (not_lt.mpr h.le), if_neg h.ne']
  exact ⟨_, rfl⟩

/-- The reciprocal square root of max x 1, for real x, is a real number: the maximum is a real at least 1. -/
theorem rsqrt_max_one_real {x : EReal} (hx : IsReal x) : IsReal (Ideal.rsqrt (max x 1)) := by
  obtain ⟨r, rfl⟩ := hx
  have e : max (r : EReal) 1 = ((max r 1 : ℝ) : EReal) := by
    rcases le_total r 1 with h | h
    · rw [max_eq_right h, max_eq_right (by exact_mod_cast h), EReal.coe_one]
    · rw [max_eq_left h, max_eq_left (by exact_mod_cast h)]
  rw [e]
  exact rsqrt_real_of_pos (lt_of_lt_of_le one_pos (le_max_right r 1))

/-- One cell of a log-softmax along an axis of extent one: at a real difference d, d - log (0 + exp d) = 0. -/
theorem softmax_cell {d : EReal} (hd : IsReal d) : d - Ideal.log (0 + Ideal.exp d) = 0 := by
  obtain ⟨r, rfl⟩ := hd
  rw [zero_add, Ideal.exp_coe, Ideal.log_coe, if_neg (not_le.mpr (Real.exp_pos r)), Real.log_exp, ← EReal.coe_sub, sub_self,
    EReal.coe_zero]

/-- The maximum, from -∞, of a nonempty finite family of reals is a real number. -/
theorem fold_max_real {ι : Type} (s : Finset ι) (hs : s.Nonempty) (f : ι → EReal) (hf : ∀ i, IsReal (f i)) :
    IsReal (s.fold max ⊥ f) := by
  classical
  induction hs using Finset.Nonempty.cons_induction with
  | singleton a => rw [Finset.fold_singleton, max_bot_right]; exact hf a
  | cons a s ha hs ih => rw [Finset.fold_cons]; exact isReal_max (hf a) ih

/-! ## Arrays -/

section Arrays

variable {s t : Shape} {φ : FTy}

theorem AllReal.mulf {a b : FVec Ideal s φ} (ha : AllReal a) (hb : AllReal b) : AllReal (mulf a b) :=
  fun i => (ha i).mul (hb i)

theorem AllReal.addf {a b : FVec Ideal s φ} (ha : AllReal a) (hb : AllReal b) : AllReal (addf a b) :=
  fun i => (ha i).add (hb i)

theorem AllReal.subf {a b : FVec Ideal s φ} (ha : AllReal a) (hb : AllReal b) : AllReal (subf a b) :=
  fun i => (ha i).sub (hb i)

theorem AllReal.maximumf {a b : FVec Ideal s φ} (ha : AllReal a) (hb : AllReal b) : AllReal (maximumf a b) :=
  fun i => isReal_max (ha i) (hb i)

/-- A selection between two arrays of reals is an array of reals, whatever the mask. -/
theorem AllReal.select (c : IVec s 1) {a b : s.Idx → EReal} (ha : AllReal a) (hb : AllReal b) : AllReal (select c a b) := by
  intro i
  rw [select_apply]
  unfold Scalar.select
  split
  · exact ha i
  · exact hb i

/-- Re-layouts read entries of their operand. -/
theorem AllReal.broadcastInDim {dims : Fin s.rank → Fin t.rank} (h : s.BroadcastsInDim t dims) {x : s.Idx → EReal}
    (hx : AllReal x) : AllReal (broadcastInDim t dims h x) := fun _ => hx _

theorem AllReal.broadcastTo (h : s.Broadcasts t) {x : s.Idx → EReal} (hx : AllReal x) : AllReal (broadcastTo t x h) :=
  fun _ => hx _

theorem AllReal.shapeCast (h : s.ShapeCasts t) {x : s.Idx → EReal} (hx : AllReal x) : AllReal (shapeCast t x h) :=
  fun _ => hx _

/-- A change of float format is the identity on extended reals. -/
theorem AllReal.truncf {ψ : FTy} (h : ψ.bits < φ.bits) {a : FVec Ideal s φ} (ha : AllReal a) :
    AllReal (truncf ψ a h : FVec Ideal s ψ) := fun i => ha i

theorem AllReal.const_zero : AllReal (constant (F := Ideal) s .f32 0x00000000#32) :=
  fun _ => ⟨0, zero_word.trans EReal.coe_zero.symm⟩

theorem AllReal.const_one : AllReal (constant (F := Ideal) s .f32 0x3F800000#32) :=
  fun _ => ⟨1, one_word.trans EReal.coe_one.symm⟩

/-- A gather reads entries of its operand. -/
theorem AllReal.gather {si : Shape} {w : Nat} (d : GatherDims s si t) {x : s.Idx → EReal} (hx : AllReal x) (idx : IVec si w) :
    AllReal (Host.gather d x idx) := fun _ => hx _

/-- An accumulating scatter: each entry is the operand's plus a finite sum of updates. -/
theorem AllReal.scatterAdd {si u : Shape} {w : Nat} (d : ScatterDims s si u) {x : FVec Ideal s φ} {upd : FVec Ideal u φ}
    (hx : AllReal x) (hu : AllReal upd) (idx : IVec si w) : AllReal (Host.scatterAdd (F := Ideal) d x idx upd) :=
  fun i => (hx i).add (IsReal.sum _ _ hu)

/-- A matrix product on the host: each entry is a finite sum of products. -/
theorem AllReal.dotGeneral {sl sr so : Shape} {φ₁ φ₂ : FTy} (d : DotDims sl sr so) (prec : Option ContractPrecision)
    {l : FVec Ideal sl φ₁} {r : FVec Ideal sr φ₂} (hl : AllReal l) (hr : AllReal r) : AllReal (Host.dotGeneral d prec l r) := by
  intro j
  have e : Host.dotGeneral d prec l r j = ∑ k : d.contr.Idx, l (d.lhsIdx j k) * r (d.rhsIdx j k) :=
    Ideal.dotGeneral_apply d prec .single l r j
  rw [e]
  exact IsReal.sum _ _ fun k => (hl _).mul (hr _)

/-- A matrix product into a zero accumulator: each entry is a finite sum of products. -/
theorem AllReal.matmul_zero {sl sr so : Shape} {φ₁ φ₂ : FTy} (d : DotDims sl sr so) (prec : Option ContractPrecision)
    {l : FVec Ideal sl φ₁} {r : FVec Ideal sr φ₂} (hl : AllReal l) (hr : AllReal r) :
    AllReal (matmul d prec l r (constant so .f32 0x00000000#32)) := by
  intro j
  have e : matmul d prec l r (constant so .f32 0x00000000#32) j = ∑ k : d.contr.Idx, l (d.lhsIdx j k) * r (d.rhsIdx j k) :=
    Ideal.matmul_constant_zero_apply d prec l r j
  rw [e]
  exact IsReal.sum _ _ fun k => (hl _).mul (hr _)

/-- The reciprocal square root of the entrywise maximum with an array of ones. -/
theorem AllReal.rsqrt_max_one {x one : FVec Ideal s .f32} (hx : AllReal x) (h1 : ∀ i, one i = 1) :
    AllReal (Host.rsqrt (Idealize.ShloMosaic.maximumf x one)) := by
  intro i
  show IsReal (Ideal.rsqrt (max (x i) (one i)))
  rw [h1 i]
  exact rsqrt_max_one_real (hx i)

end Arrays

end Cert.RealOps

end
-- ==== Proof.KernelHost.lean ====
/-
  The host stretches of the kernel's program on arrays of real numbers.

  Before the first region the program computes the normalisation column: the degree of each node (a scatter-add of ones
  over the edge list with one self-loop per node appended), d = rsqrt (max (deg, 1)) where deg > 0 and 0 elsewhere, as a
  column; and it views the two bias vectors as rows. Between regions it gathers the rows of the last region's output at
  the edges' sources and scatter-adds them at the edges' targets. A degree is a finite sum of ones, max (deg, 1) is a
  real at least 1, a selection of reals is real whatever the mask, a gather reads entries and a scatter-add sums them: each
  stretch sends arrays of real entries to arrays of real entries, whatever the (integer) edge list holds. Buffers a
  stretch does not write keep their contents.
-/
import proofs.«159109_j29265907155119_2_alg».proof.Proof.Gen.KernelIdeal.Launch
import proofs.«159109_j29265907155119_2_alg».proof.Proof.LibAllReal
import Idealize.ShloMosaic.Lib.StableHlo.Run

set_option maxRecDepth 16384

noncomputable section

namespace Cert.KernelIdeal.Gen.Whole

open Idealize.ShloMosaic Idealize.ShloMosaic.TcCoe Idealize.ShloMosaic.StableHlo Cert.LibReal Cert.RealOps

variable (W : Valuation τ sig (Elt Ideal))

/-! ## Before the first region -/

/-- The contents after the three stretches that precede the first region. -/
abbrev pre : Valuation τ sig (Elt Ideal) :=
  after (hostOps0_2 (F := Ideal)) (after (hostOps0_1 (F := Ideal)) (after (hostOps0 (F := Ideal)) W))

set_option maxHeartbeats 2000000 in
/-- After the first stretch: rsqrt (max (deg, 1)) has real entries, the degree being a finite sum of ones. -/
theorem host0_v15 : ∀ i, IsReal (after (hostOps0 (F := Ideal)) W (Proc.devRef .tc main_v15) i) := by
  dsimp only [hostOps0]
  after_results_simp
  exact AllReal.rsqrt_max_one
    (AllReal.scatterAdd _ (AllReal.broadcastInDim _ AllReal.const_zero) (AllReal.broadcastInDim _ AllReal.const_one) _)
    (fun _ => one_word)

set_option maxHeartbeats 2000000 in
/-- After the first stretch: the zero the selection falls back to. -/
theorem host0_cst3 : ∀ i, IsReal (after (hostOps0 (F := Ideal)) W (Proc.devRef .tc main_cst_3) i) := by
  dsimp only [hostOps0]
  after_results_simp
  exact AllReal.const_zero

set_option maxHeartbeats 2000000 in
/-- The selection between rsqrt (max (deg, 1)) and zero has real entries, whatever the mask. -/
theorem host01_v16 (h15 : ∀ i, IsReal (W (Proc.devRef .tc main_v15) i)) (hc : ∀ i, IsReal (W (Proc.devRef .tc main_cst_3) i)) :
    ∀ i, IsReal (after (hostOps0_1 (F := Ideal)) W (Proc.devRef .tc main_v16) i) := by
  dsimp only [hostOps0_1]
  after_results_simp
  intro i
  show IsReal (select (W (Proc.devRef .tc main_v12) : IVec S100000 1) (W (Proc.devRef .tc main_v15) : FVec Ideal S100000 .f32)
    (broadcastInDim S100000 ![] bcast_S_S100000 (W (Proc.devRef .tc main_cst_3) : FVec Ideal S_ .f32)) i)
  exact AllReal.select _ (fun j => h15 j) (AllReal.broadcastInDim _ (fun j => hc j)) i

set_option maxHeartbeats 2000000 in
/-- The normalisation vector viewed as a column. -/
theorem host02_v17 (h16 : ∀ i, IsReal (W (Proc.devRef .tc main_v16) i)) :
    ∀ i, IsReal (after (hostOps0_2 (F := Ideal)) W (Proc.devRef .tc main_v17) i) := by
  dsimp only [hostOps0_2]
  after_results_simp
  exact fun i => h16 _

/-- The normalisation column has real entries. -/
theorem pre_v17 : ∀ i, IsReal (pre W (Proc.devRef .tc main_v17) i) :=
  host02_v17 _ (host01_v16 _ (host0_v15 W) (host0_cst3 W))

set_option maxHeartbeats 2000000 in
/-- The first bias as a row. -/
theorem pre_v18 (h3 : ∀ i, IsReal (W (Proc.devRef .tc main_arg3) i)) : ∀ i, IsReal (pre W (Proc.devRef .tc main_v18) i) := by
  dsimp only [pre, hostOps0, hostOps0_1, hostOps0_2]
  after_results_simp
  exact fun i => h3 _

set_option maxHeartbeats 2000000 in
/-- The second bias as a row. -/
theorem pre_v19 (h5 : ∀ i, IsReal (W (Proc.devRef .tc main_arg5) i)) : ∀ i, IsReal (pre W (Proc.devRef .tc main_v19) i) := by
  dsimp only [pre, hostOps0, hostOps0_1, hostOps0_2]
  after_results_simp
  exact fun i => h5 _

set_option maxHeartbeats 2000000 in
theorem pre_arg0 : pre W (Proc.devRef .tc main_arg0) = W (Proc.devRef .tc main_arg0) := by
  dsimp only [pre, hostOps0, hostOps0_1, hostOps0_2]
  after_results_simp

set_option maxHeartbeats 2000000 in
theorem pre_arg2 : pre W (Proc.devRef .tc main_arg2) = W (Proc.devRef .tc main_arg2) := by
  dsimp only [pre, hostOps0, hostOps0_1, hostOps0_2]
  after_results_simp

set_option maxHeartbeats 2000000 in
theorem pre_arg4 : pre W (Proc.devRef .tc main_arg4) = W (Proc.devRef .tc main_arg4) := by
  dsimp only [pre, hostOps0, hostOps0_1, hostOps0_2]
  after_results_simp

/-! ## Between the first and the second region -/

set_option maxHeartbeats 2000000 in
/-- Rows gathered at the sources and summed at the targets. -/
theorem mid1_v30 (h : ∀ i, IsReal (W (Proc.devRef .tc main_v20) i)) :
    ∀ i, IsReal (after (hostOps1 (F := Ideal)) W (Proc.devRef .tc main_v30) i) := by
  dsimp only [hostOps1]
  after_results_simp
  exact AllReal.scatterAdd _ (AllReal.broadcastInDim _ AllReal.const_zero) (AllReal.gather _ (fun i => h i) _) _

set_option maxHeartbeats 2000000 in
theorem mid1_v17 : after (hostOps1 (F := Ideal)) W (Proc.devRef .tc main_v17) = W (Proc.devRef .tc main_v17) := by
  dsimp only [hostOps1]
  after_results_simp

set_option maxHeartbeats 2000000 in
theorem mid1_v18 : after (hostOps1 (F := Ideal)) W (Proc.devRef .tc main_v18) = W (Proc.devRef .tc main_v18) := by
  dsimp only [hostOps1]
  after_results_simp

set_option maxHeartbeats 2000000 in
theorem mid1_v19 : after (hostOps1 (F := Ideal)) W (Proc.devRef .tc main_v19) = W (Proc.devRef .tc main_v19) := by
  dsimp only [hostOps1]
  after_results_simp

set_option maxHeartbeats 2000000 in
theorem mid1_arg4 : after (hostOps1 (F := Ideal)) W (Proc.devRef .tc main_arg4) = W (Proc.devRef .tc main_arg4) := by
  dsimp only [hostOps1]
  after_results_simp

/-! ## Between the second and the third region -/

set_option maxHeartbeats 2000000 in
theorem mid2_v41 (h : ∀ i, IsReal (W (Proc.devRef .tc main_v31) i)) :
    ∀ i, IsReal (after (hostOps2 (F := Ideal)) W (Proc.devRef .tc main_v41) i) := by
  dsimp only [hostOps2]
  after_results_simp
  exact AllReal.scatterAdd _ (AllReal.broadcastInDim _ AllReal.const_zero) (AllReal.gather _ (fun i => h i) _) _

set_option maxHeartbeats 2000000 in
theorem mid2_v17 : after (hostOps2 (F := Ideal)) W (Proc.devRef .tc main_v17) = W (Proc.devRef .tc main_v17) := by
  dsimp only [hostOps2]
  after_results_simp

set_option maxHeartbeats 2000000 in
theorem mid2_v19 : after (hostOps2 (F := Ideal)) W (Proc.devRef .tc main_v19) = W (Proc.devRef .tc main_v19) := by
  dsimp only [hostOps2]
  after_results_simp

end Cert.KernelIdeal.Gen.Whole

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.KernelBody.lean ====
/-
  The three kernel bodies on blocks of real numbers.

  Each body stores one block, a pure function of the blocks it loads.
  * The first: (x · W) scaled row by row by a column d — a finite sum of products times an entry of d.
  * The second: max (a · d + b, 0) · W, scaled row by row by d again.
  * The third: with y = a · d + b in one column, y - M - log (0 + exp (y - M)), M the maximum of y's row; the row has the
    single entry y, so M is real whenever y is, and the value is 0.
  So the first two send blocks of real entries to blocks of real entries, and the third sends them to the zero block.
-/
import proofs.«159109_j29265907155119_2_alg».proof.Proof.Gen.KernelIdeal.Frame
import proofs.«159109_j29265907155119_2_alg».proof.Proof.LibAllReal
import proofs.«159109_j29265907155119_2_alg».proof.Proof.LibKeepdims
import Idealize.ShloMosaic.Lib.ValueIdx
import Idealize.ShloMosaic.Lib.Pipeline.Value
import Idealize.ShloMosaic.PureOps.Ideal.Laws

set_option maxRecDepth 16384

noncomputable section

namespace Cert.KernelIdeal.Gen.Whole

open Idealize.ShloMosaic Idealize.ShloMosaic.ValueIdx Cert.LibReal Cert.RealOps

/-- The offset of a store of a whole block is zero on both axes. -/
theorem off_zero : (![0, 0] : Fin 2 → Nat) = fun _ => 0 := funext fun a => by fin_cases a <;> rfl

/-! ## The stored values -/

/-- The first body's stored value on real blocks: every entry is a finite sum of products times a real. -/
theorem pay0_real (v0 : Vec Ideal S10000x128 .f32) (v2 : Vec Ideal S128x16 .f32) (v5 : Vec Ideal S10000x1 .f32)
    (h0 : AllReal v0) (h2 : AllReal v2) (h5 : AllReal v5) : AllReal (k0_pay1 (F := Ideal) v0 v2 v5) := by
  unfold k0_pay1
  dsimp only
  exact AllReal.mulf (AllReal.matmul_zero _ none (AllReal.truncf _ h0) (AllReal.truncf _ h2))
    (AllReal.broadcastTo _ (AllReal.shapeCast _ h5))

/-- The second body's stored value on real blocks. -/
theorem pay1_real (v0 : Vec Ideal S10000x1 .f32) (v2 : Vec Ideal S10000x16 .f32) (v6 : Vec Ideal S1x16 .f32)
    (v13 : Vec Ideal S16x1 .f32) (h0 : AllReal v0) (h2 : AllReal v2) (h6 : AllReal v6) (h13 : AllReal v13) :
    AllReal (k1_pay1 (F := Ideal) v0 v2 v6 v13) := by
  unfold k1_pay1
  dsimp only
  have hrelu : AllReal (maximumf (addf (mulf (shapeCast S10000x16 v2 shapeCasts_S10000x16_S10000x16)
      (broadcastTo S10000x16 (shapeCast S10000x1 v0 shapeCasts_S10000x1_S10000x1) broadcasts_S10000x1_S10000x16))
      (broadcastTo S10000x16 (shapeCast S1x16 v6 shapeCasts_S1x16_S1x16) broadcasts_S1x16_S10000x16))
      (broadcast S10000x16 (Scalar.ofBits (F := Ideal) .f32 0x00000000#32))) :=
    AllReal.maximumf
      (AllReal.addf (AllReal.mulf (AllReal.shapeCast _ h2) (AllReal.broadcastTo _ (AllReal.shapeCast _ h0)))
        (AllReal.broadcastTo _ (AllReal.shapeCast _ h6)))
      (fun _ => ⟨0, zero_word.trans EReal.coe_zero.symm⟩)
  exact AllReal.mulf (AllReal.matmul_zero _ none (AllReal.truncf _ hrelu) (AllReal.truncf _ h13)) (AllReal.shapeCast _ h0)

/-! ## A log-softmax along an axis of extent one -/

/-- d - log (exp d) = 0 at a real d. -/
theorem softmax_cell' {d : EReal} (hd : IsReal d) : d - Ideal.log (Ideal.exp d) = 0 := by
  have h := softmax_cell hd
  rwa [zero_add] at h

/-- A column y of real entries, its row maxima M (each row has the single entry y) and its row sums of exp (y - M):
    the log-softmax (y - M) - log (sum) is zero at every entry. -/
theorem lsm_col {a : ℕ} (y : FVec Ideal ⟨2, ![a, 1]⟩ .f32) (hy : AllReal y)
    (hr : (⟨2, ![a, 1]⟩ : Shape).Reduces [1] ⟨1, ![a]⟩) (hφ : FKind.Formats .f32)
    (hmax : (0xFF800000#32 : BitVec 32) = FKind.maximumf.neutral .f32 hφ)
    (hadd : (0x00000000#32 : BitVec 32) = 0x00000000#32)
    (hc : (⟨1, ![a]⟩ : Shape).ShapeCasts ⟨2, ![a, 1]⟩) (p : Fin a) (q : Fin 1) :
    subf (subf y (shapeCast ⟨2, ![a, 1]⟩ (multiReduction .maximumf [1] ⟨1, ![a]⟩ y 0xFF800000#32 hr hφ hmax) hc))
      (log (shapeCast ⟨2, ![a, 1]⟩ (multiReduction .add [1] ⟨1, ![a]⟩
        (exp (subf y (shapeCast ⟨2, ![a, 1]⟩ (multiReduction .maximumf [1] ⟨1, ![a]⟩ y 0xFF800000#32 hr hφ hmax) hc)))
        0x00000000#32 hr hφ hadd) hc)) (ix2 p q) = 0 := by
  obtain rfl : q = 0 := Subsingleton.elim _ _
  have hM : IsReal (multiReduction .maximumf [1] ⟨1, ![a]⟩ y 0xFF800000#32 hr hφ hmax (ix1 p)) := by
    rw [Ideal.multiReduction_maximumf_single y _ hr hφ hmax (ix1 p)]
    have e : (FloatOps.ofBits (F := Ideal) .f32 0xFF800000#32 : EReal) = ⊥ := ninf_word
    rw [e]
    exact fold_max_real _ ⟨⟨0, Nat.one_pos⟩, Finset.mem_univ _⟩ _ (fun k => hy _)
  have hd : IsReal (subf y (shapeCast ⟨2, ![a, 1]⟩ (multiReduction .maximumf [1] ⟨1, ![a]⟩ y 0xFF800000#32 hr hφ hmax) hc)
      (ix2 p (0 : Fin 1))) := by
    show IsReal (y (ix2 p (0 : Fin 1)) - shapeCast ⟨2, ![a, 1]⟩ _ hc (ix2 p (0 : Fin 1)))
    rw [Cert.Keepdims.shapeCast_a_a1_apply]
    exact (hy _).sub hM
  show _ - Ideal.log (shapeCast ⟨2, ![a, 1]⟩ _ hc (ix2 p (0 : Fin 1))) = 0
  rw [Cert.Keepdims.shapeCast_a_a1_apply, Cert.Keepdims.rowSum_apply, Fin.sum_univ_one]
  exact softmax_cell' hd

/-- The third body's stored value on real blocks is the zero block. -/
theorem pay2_zero (v0 v2 : Vec Ideal S10000x1 .f32) (v5 : Vec Ideal S1x1 .f32)
    (h0 : AllReal v0) (h2 : AllReal v2) (h5 : AllReal v5) (j : S10000x1.Idx) : k2_pay1 (F := Ideal) v0 v2 v5 j = (0 : EReal) := by
  obtain ⟨p, q, rfl⟩ : ∃ (p : Fin 10000) (q : Fin 1), j = ix2 p q := ⟨j 0, j 1, eq_ix2 j⟩
  unfold k2_pay1
  dsimp only
  exact lsm_col _ (AllReal.addf (AllReal.mulf (AllReal.shapeCast _ h0) (AllReal.shapeCast _ h2))
    (AllReal.broadcastTo _ (AllReal.shapeCast _ h5))) _ _ _ _ _ p q

end Cert.KernelIdeal.Gen.Whole

end
-- ==== Proof.KernelRegions.lean ====
/-
  What each kernel region leaves in its output array.

  A region runs its body once per block of ten thousand rows; point t loads block t of each blocked input and the whole
  of each small input, and writes block t of the output back. Every element of a loaded block is an element of its array,
  so real arrays give real blocks; the ten blocks of an output tile its hundred thousand rows (row r lies in block
  r / 10000), so a property of every written-back element is a property of every element of the output array after the
  region. With the bodies' behaviour on real blocks: the first two regions leave arrays of real entries, the third
  leaves the zero column.
-/
import proofs.«159109_j29265907155119_2_alg».proof.Proof.KernelBody
import Idealize.ShloMosaic.Lib.Pipeline.Value

set_option maxRecDepth 16384

noncomputable section

namespace Cert.KernelIdeal.Gen.Whole

open Idealize.ShloMosaic Idealize.ShloMosaic.TcCoe Idealize.ShloMosaic.ValueIdx Cert.LibReal Cert.RealOps
open Idealize.ShloMosaic.Pipeline (Dat Cfg Window)

/-- An extended real that is zero. -/
def IsZero (x : EReal) : Prop := x = 0

variable (V : (c : Dev nD) → (b : Ref sig .tc) → Buf (Elt Ideal) ((c : Thread nD τ).loc b))

/-! ## Region 0 -/

/-- The body's block on real input blocks has real entries. -/
theorem out0_real (x0 : Vec Ideal S10000x128 .f32) (x1 : Vec Ideal S128x16 .f32) (x2 : Vec Ideal S10000x1 .f32)
    (h0 : AllReal x0) (h1 : AllReal x1) (h2 : AllReal x2) : AllReal (out0_3 (F := Ideal) x0 x1 x2) := by
  unfold out0_3
  rw [View.canon_unit_zero off_zero]
  simp only [View.ld_unit_zero (S := S10000x128) off_zero, View.ld_unit_zero (S := S128x16) off_zero, View.ld_unit_zero (S := S10000x1) off_zero]
  exact pay0_real _ _ _ h0 h1 h2

/-- An index of the output array lies in point t's block iff each coordinate is in the block's range on its axis. -/
theorem mem_blk0 (t : Fin cfg0.N) (i : S100000x16.Idx) :
    i ∈ ((cfg0.win 3).blk t).view.set ↔ ∀ a : Fin 2, win0_3.index t a * S10000x16.size a ≤ (i a).val ∧ (i a).val < win0_3.index t a * S10000x16.size a + S10000x16.size a := by
  show i ∈ ((View.whole main_v20).slice (win0_3.rect t)).set ↔ _
  rw [View.set_slice_whole, Rect.mem_set_unit]
  exact Iff.rfl

/-- Point t writes block (t, 0). -/
theorem idx0 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- The ten blocks tile the output array: row r lies in block r / 10000. -/
theorem cover0 (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : grid0.N = 10 := N_0
  have hlt : (i 0).val / 10000 < cfg0.N := by show (i 0).val / 10000 < grid0.N; omega
  obtain ⟨e0, e1⟩ := idx0 ⟨(i 0).val / 10000, hlt⟩
  refine ⟨⟨(i 0).val / 10000, hlt⟩, flush0_3 _, ?_⟩
  rw [mem_blk0]
  intro a
  match a with
  | ⟨0, _⟩ =>
    show win0_3.index ⟨(i 0).val / 10000, hlt⟩ (0 : Fin 2) * 10000 ≤ (i 0).val ∧ (i 0).val < win0_3.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win0_3.index ⟨(i 0).val / 10000, hlt⟩ (1 : Fin 2) * 16 ≤ (i 1).val ∧ (i 1).val < win0_3.index ⟨(i 0).val / 10000, hlt⟩ (1 : Fin 2) * 16 + 16
    rw [e1]; omega

/-- The output array after the region, from real input arrays. -/
theorem region0_real (c : Dev nD)
    (h0 : ∀ i, IsReal ((V c (Pipeline.arrRef spec0 0) : FVec Ideal S100000x128 .f32) i))
    (h1 : ∀ i, IsReal ((V c (Pipeline.arrRef spec0 1) : FVec Ideal S128x16 .f32) i))
    (h2 : ∀ i, IsReal ((V c (Pipeline.arrRef spec0 2) : FVec Ideal S100000x1 .f32) i)) (i : S100000x16.Idx) :
    IsReal ((dat0 V c).arrAt 3 cfg0.N i) := by
  refine (dat0 V c).arrAt_forall_of_cover 3 (fun _ v => IsReal v) ?_ cover0 i
  intro t _ y
  have hx0 : AllReal (s := S10000x128) (iblk0 V c 0 t) := fun y' => h0 (((cfg0.win 0).blk t).view.emb y')
  have hx1 : AllReal (s := S128x16) (iblk0 V c 1 t) := fun y' => h1 (((cfg0.win 1).blk t).view.emb y')
  have hx2 : AllReal (s := S10000x1) (iblk0 V c 2 t) := fun y' => h2 (((cfg0.win 2).blk t).view.emb y')
  have hb : AllReal (out0_3 (F := Ideal) (iblk0 V c 0 t) (iblk0 V c 1 t) (iblk0 V c 2 t)) :=
    out0_real (iblk0 V c 0 t) (iblk0 V c 1 t) (iblk0 V c 2 t) hx0 hx1 hx2
  show IsReal (cast _ ((cfg0.win 3).cut (cfg0.grid.coords t) ((dat0 V c).after 3 t) y))
  rw [after0_3]
  generalize out0_3 (F := Ideal) (iblk0 V c 0 t) (iblk0 V c 1 t) (iblk0 V c 2 t) = X at hb ⊢
  exact hb _

/-! ## Region 1 -/

/-- The body's block on real input blocks has real entries. -/
theorem out1_real (x0 : Vec Ideal S10000x16 .f32) (x1 : Vec Ideal S10000x1 .f32) (x2 : Vec Ideal S1x16 .f32) (x3 : Vec Ideal S16x1 .f32)
    (h0 : AllReal x0) (h1 : AllReal x1) (h2 : AllReal x2) (h3 : AllReal x3) : AllReal (out1_4 (F := Ideal) x0 x1 x2 x3) := by
  unfold out1_4
  rw [View.canon_unit_zero off_zero]
  simp only [View.ld_unit_zero (S := S10000x16) off_zero, View.ld_unit_zero (S := S10000x1) off_zero, View.ld_unit_zero (S := S1x16) off_zero, View.ld_unit_zero (S := S16x1) off_zero]
  exact pay1_real _ _ _ _ h1 h0 h2 h3

/-- An index of the output array lies in point t's block iff each coordinate is in the block's range on its axis. -/
theorem mem_blk1 (t : Fin cfg1.N) (i : S100000x1.Idx) :
    i ∈ ((cfg1.win 4).blk t).view.set ↔ ∀ a : Fin 2, win1_4.index t a * S10000x1.size a ≤ (i a).val ∧ (i a).val < win1_4.index t a * S10000x1.size a + S10000x1.size a := by
  show i ∈ ((View.whole main_v31).slice (win1_4.rect t)).set ↔ _
  rw [View.set_slice_whole, Rect.mem_set_unit]
  exact Iff.rfl

/-- Point t writes block (t, 0). -/
theorem idx1 : ∀ t : Fin cfg1.N, win1_4.index t (0 : Fin 2) = t.val ∧ win1_4.index t (1 : Fin 2) = 0 :=
  (by decide +kernel : ∀ t : Fin grid1.N, win1_4.index t (0 : Fin 2) = t.val ∧ win1_4.index t (1 : Fin 2) = 0)

/-- The ten blocks tile the output array: row r lies in block r / 10000. -/
theorem cover1 (i : S100000x1.Idx) : ∃ t : Fin cfg1.N, (cfg1.win 4).flush t = true ∧ i ∈ ((cfg1.win 4).blk t).view.set := by
  have hi0 : (i 0).val < 100000 := (i 0).isLt
  have hi1 : (i 1).val < 1 := (i 1).isLt
  have hN : grid1.N = 10 := N_1
  have hlt : (i 0).val / 10000 < cfg1.N := by show (i 0).val / 10000 < grid1.N; omega
  obtain ⟨e0, e1⟩ := idx1 ⟨(i 0).val / 10000, hlt⟩
  refine ⟨⟨(i 0).val / 10000, hlt⟩, flush1_4 _, ?_⟩
  rw [mem_blk1]
  intro a
  match a with
  | ⟨0, _⟩ =>
    show win1_4.index ⟨(i 0).val / 10000, hlt⟩ (0 : Fin 2) * 10000 ≤ (i 0).val ∧ (i 0).val < win1_4.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win1_4.index ⟨(i 0).val / 10000, hlt⟩ (1 : Fin 2) * 1 ≤ (i 1).val ∧ (i 1).val < win1_4.index ⟨(i 0).val / 10000, hlt⟩ (1 : Fin 2) * 1 + 1
    rw [e1]; omega

/-- The output array after the region, from real input arrays. -/
theorem region1_real (c : Dev nD)
    (h0 : ∀ i, IsReal ((V c (Pipeline.arrRef spec1 0) : FVec Ideal S100000x16 .f32) i))
    (h1 : ∀ i, IsReal ((V c (Pipeline.arrRef spec1 1) : FVec Ideal S100000x1 .f32) i))
    (h2 : ∀ i, IsReal ((V c (Pipeline.arrRef spec1 2) : FVec Ideal S1x16 .f32) i))
    (h3 : ∀ i, IsReal ((V c (Pipeline.arrRef spec1 3) : FVec Ideal S16x1 .f32) i)) (i : S100000x1.Idx) :
    IsReal ((dat1 V c).arrAt 4 cfg1.N i) := by
  refine (dat1 V c).arrAt_forall_of_cover 4 (fun _ v => IsReal v) ?_ cover1 i
  intro t _ y
  have hx0 : AllReal (s := S10000x16) (iblk1 V c 0 t) := fun y' => h0 (((cfg1.win 0).blk t).view.emb y')
  have hx1 : AllReal (s := S10000x1) (iblk1 V c 1 t) := fun y' => h1 (((cfg1.win 1).blk t).view.emb y')
  have hx2 : AllReal (s := S1x16) (iblk1 V c 2 t) := fun y' => h2 (((cfg1.win 2).blk t).view.emb y')
  have hx3 : AllReal (s := S16x1) (iblk1 V c 3 t) := fun y' => h3 (((cfg1.win 3).blk t).view.emb y')
  have hb : AllReal (out1_4 (F := Ideal) (iblk1 V c 0 t) (iblk1 V c 1 t) (iblk1 V c 2 t) (iblk1 V c 3 t)) :=
    out1_real (iblk1 V c 0 t) (iblk1 V c 1 t) (iblk1 V c 2 t) (iblk1 V c 3 t) hx0 hx1 hx2 hx3
  show IsReal (cast _ ((cfg1.win 4).cut (cfg1.grid.coords t) ((dat1 V c).after 4 t) y))
  rw [after1_4]
  generalize out1_4 (F := Ideal) (iblk1 V c 0 t) (iblk1 V c 1 t) (iblk1 V c 2 t) (iblk1 V c 3 t) = X at hb ⊢
  exact hb _

/-! ## Region 2 -/

/-- The body's block on real input blocks is the zero block. -/
theorem out2_zero (x0 : Vec Ideal S10000x1 .f32) (x1 : Vec Ideal S10000x1 .f32) (x2 : Vec Ideal S1x1 .f32)
    (h0 : AllReal x0) (h1 : AllReal x1) (h2 : AllReal x2) (j : S10000x1.Idx) : out2_3 (F := Ideal) x0 x1 x2 j = (0 : EReal) := by
  unfold out2_3
  rw [View.canon_unit_zero off_zero]
  simp only [View.ld_unit_zero (S := S10000x1) off_zero, View.ld_unit_zero (S := S1x1) off_zero]
  exact pay2_zero _ _ _ h0 h1 h2 j

/-- An index of the output array lies in point t's block iff each coordinate is in the block's range on its axis. -/
theorem mem_blk2 (t : Fin cfg2.N) (i : S100000x1.Idx) :
    i ∈ ((cfg2.win 3).blk t).view.set ↔ ∀ a : Fin 2, win2_3.index t a * S10000x1.size a ≤ (i a).val ∧ (i a).val < win2_3.index t a * S10000x1.size a + S10000x1.size a := by
  show i ∈ ((View.whole main_v42).slice (win2_3.rect t)).set ↔ _
  rw [View.set_slice_whole, Rect.mem_set_unit]
  exact Iff.rfl

/-- Point t writes block (t, 0). -/
theorem idx2 : ∀ t : Fin cfg2.N, win2_3.index t (0 : Fin 2) = t.val ∧ win2_3.index t (1 : Fin 2) = 0 :=
  (by decide +kernel : ∀ t : Fin grid2.N, win2_3.index t (0 : Fin 2) = t.val ∧ win2_3.index t (1 : Fin 2) = 0)

/-- The ten blocks tile the output array: row r lies in block r / 10000. -/
theorem cover2 (i : S100000x1.Idx) : ∃ t : Fin cfg2.N, (cfg2.win 3).flush t = true ∧ i ∈ ((cfg2.win 3).blk t).view.set := by
  have hi0 : (i 0).val < 100000 := (i 0).isLt
  have hi1 : (i 1).val < 1 := (i 1).isLt
  have hN : grid2.N = 10 := N_2
  have hlt : (i 0).val / 10000 < cfg2.N := by show (i 0).val / 10000 < grid2.N; omega
  obtain ⟨e0, e1⟩ := idx2 ⟨(i 0).val / 10000, hlt⟩
  refine ⟨⟨(i 0).val / 10000, hlt⟩, flush2_3 _, ?_⟩
  rw [mem_blk2]
  intro a
  match a with
  | ⟨0, _⟩ =>
    show win2_3.index ⟨(i 0).val / 10000, hlt⟩ (0 : Fin 2) * 10000 ≤ (i 0).val ∧ (i 0).val < win2_3.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win2_3.index ⟨(i 0).val / 10000, hlt⟩ (1 : Fin 2) * 1 ≤ (i 1).val ∧ (i 1).val < win2_3.index ⟨(i 0).val / 10000, hlt⟩ (1 : Fin 2) * 1 + 1
    rw [e1]; omega

/-- The output array after the region, from real input arrays. -/
theorem region2_zero (c : Dev nD)
    (h0 : ∀ i, IsReal ((V c (Pipeline.arrRef spec2 0) : FVec Ideal S100000x1 .f32) i))
    (h1 : ∀ i, IsReal ((V c (Pipeline.arrRef spec2 1) : FVec Ideal S100000x1 .f32) i))
    (h2 : ∀ i, IsReal ((V c (Pipeline.arrRef spec2 2) : FVec Ideal S1x1 .f32) i)) (i : S100000x1.Idx) :
    IsZero ((dat2 V c).arrAt 3 cfg2.N i) := by
  refine (dat2 V c).arrAt_forall_of_cover 3 (fun _ v => IsZero v) ?_ cover2 i
  intro t _ y
  have hx0 : AllReal (s := S10000x1) (iblk2 V c 0 t) := fun y' => h0 (((cfg2.win 0).blk t).view.emb y')
  have hx1 : AllReal (s := S10000x1) (iblk2 V c 1 t) := fun y' => h1 (((cfg2.win 1).blk t).view.emb y')
  have hx2 : AllReal (s := S1x1) (iblk2 V c 2 t) := fun y' => h2 (((cfg2.win 2).blk t).view.emb y')
  have hb : ∀ j, out2_3 (F := Ideal) (iblk2 V c 0 t) (iblk2 V c 1 t) (iblk2 V c 2 t) j = (0 : EReal) :=
    out2_zero (iblk2 V c 0 t) (iblk2 V c 1 t) (iblk2 V c 2 t) hx0 hx1 hx2
  show IsZero (cast _ ((cfg2.win 3).cut (cfg2.grid.coords t) ((dat2 V c).after 3 t) y))
  rw [after2_3]
  generalize out2_3 (F := Ideal) (iblk2 V c 0 t) (iblk2 V c 1 t) (iblk2 V c 2 t) = X at hb ⊢
  exact hb _

end Cert.KernelIdeal.Gen.Whole

end
-- ==== Proof.KernelValue.lean ====
/-
  The idealized kernel's result is the zero column.

  The program's buffers are followed from the launch to the end, boundary by boundary: through the host stretches before
  the first region (the normalisation column d and the two bias rows have real entries when the arguments do), through
  region 0 (d · (x W1), real), the gather and scatter-add after it (sums of real rows), region 1 (d · (max (d · a + b1, 0) W2),
  real), the second gather and scatter-add, and region 2, whose log-softmax along an axis of extent one is zero at every
  real entry. A region leaves each input array and every buffer that is not one of its arrays as it found it.
-/
import proofs.«159109_j29265907155119_2_alg».proof.Proof.KernelHost
import proofs.«159109_j29265907155119_2_alg».proof.Proof.KernelRegions

set_option maxRecDepth 16384

noncomputable section

namespace Cert.KernelIdeal.Gen.Whole

open Idealize.ShloMosaic Idealize.ShloMosaic.TcCoe Idealize.ShloMosaic.StableHlo Cert.LibReal Cert.RealOps
open Idealize.ShloMosaic.Pipeline (Dat Cfg Window)

theorem isReal_of_eq {x y : EReal} (e : x = y) (h : IsReal y) : IsReal x := e ▸ h

section

variable (m : (ℓ : Loc nD τ sig) → Buf (Elt Ideal) ℓ) (ρ : Dev nD → PrngReg) (c : Dev nD)
  (hm0 : ∀ i, IsReal (m ((c : Thread nD τ).loc main_arg0) i))
  (hm2 : ∀ i, IsReal (m ((c : Thread nD τ).loc main_arg2) i))
  (hm3 : ∀ i, IsReal (m ((c : Thread nD τ).loc main_arg3) i))
  (hm4 : ∀ i, IsReal (m ((c : Thread nD τ).loc main_arg4) i))
  (hm5 : ∀ i, IsReal (m ((c : Thread nD τ).loc main_arg5) i))

/-! ## At the first region's entry -/

theorem e3_v17 : ∀ i, IsReal (W3 m ρ c (Proc.devRef .tc main_v17) i) := pre_v17 (W0 m ρ c)

include hm3 in
theorem e3_v18 : ∀ i, IsReal (W3 m ρ c (Proc.devRef .tc main_v18) i) := pre_v18 (W0 m ρ c) (fun i => hm3 i)

include hm5 in
theorem e3_v19 : ∀ i, IsReal (W3 m ρ c (Proc.devRef .tc main_v19) i) := pre_v19 (W0 m ρ c) (fun i => hm5 i)

include hm0 in
theorem e3_arg0 : ∀ i, IsReal (W3 m ρ c (Proc.devRef .tc main_arg0) i) :=
  fun i => isReal_of_eq (congrFun (pre_arg0 (W0 m ρ c)) i) (hm0 i)

include hm2 in
theorem e3_arg2 : ∀ i, IsReal (W3 m ρ c (Proc.devRef .tc main_arg2) i) :=
  fun i => isReal_of_eq (congrFun (pre_arg2 (W0 m ρ c)) i) (hm2 i)

include hm4 in
theorem e3_arg4 : ∀ i, IsReal (W3 m ρ c (Proc.devRef .tc main_arg4) i) :=
  fun i => isReal_of_eq (congrFun (pre_arg4 (W0 m ρ c)) i) (hm4 i)

/-! ## After the first region -/

include hm0 hm2 in
theorem e4_v20 : ∀ i, IsReal (W4 m ρ c (Proc.devRef .tc main_v20) i) :=
  fun i => isReal_of_eq (congrFun (W4_arr m ρ c 3) i)
    (region0_real (V3 m ρ) c (e3_arg0 m ρ c hm0) (e3_arg2 m ρ c hm2) (e3_v17 m ρ c) i)

theorem e4_v17 : ∀ i, IsReal (W4 m ρ c (Proc.devRef .tc main_v17) i) :=
  fun i => isReal_of_eq
    (congrFun ((W4_arr m ρ c 2).trans (((dat0 (V3 m ρ) c).arrAt_in 2 rfl _).trans (A_eq0 (V3 m ρ) c 2))) i) (e3_v17 m ρ c i)

include hm3 in
theorem e4_v18 : ∀ i, IsReal (W4 m ρ c (Proc.devRef .tc main_v18) i) :=
  fun i => isReal_of_eq (congrFun (W4_of_ne m ρ c main_v18 (by decide)) i) (e3_v18 m ρ c hm3 i)

include hm5 in
theorem e4_v19 : ∀ i, IsReal (W4 m ρ c (Proc.devRef .tc main_v19) i) :=
  fun i => isReal_of_eq (congrFun (W4_of_ne m ρ c main_v19 (by decide)) i) (e3_v19 m ρ c hm5 i)

include hm4 in
theorem e4_arg4 : ∀ i, IsReal (W4 m ρ c (Proc.devRef .tc main_arg4) i) :=
  fun i => isReal_of_eq (congrFun (W4_of_ne m ρ c main_arg4 (by decide)) i) (e3_arg4 m ρ c hm4 i)

/-! ## At the second region's entry -/

include hm0 hm2 in
theorem e5_v30 : ∀ i, IsReal (W5 m ρ c (Proc.devRef .tc main_v30) i) := mid1_v30 (W4 m ρ c) (e4_v20 m ρ c hm0 hm2)

theorem e5_v17 : ∀ i, IsReal (W5 m ρ c (Proc.devRef .tc main_v17) i) :=
  fun i => isReal_of_eq (congrFun (mid1_v17 (W4 m ρ c)) i) (e4_v17 m ρ c i)

include hm3 in
theorem e5_v18 : ∀ i, IsReal (W5 m ρ c (Proc.devRef .tc main_v18) i) :=
  fun i => isReal_of_eq (congrFun (mid1_v18 (W4 m ρ c)) i) (e4_v18 m ρ c hm3 i)

include hm5 in
theorem e5_v19 : ∀ i, IsReal (W5 m ρ c (Proc.devRef .tc main_v19) i) :=
  fun i => isReal_of_eq (congrFun (mid1_v19 (W4 m ρ c)) i) (e4_v19 m ρ c hm5 i)

include hm4 in
theorem e5_arg4 : ∀ i, IsReal (W5 m ρ c (Proc.devRef .tc main_arg4) i) :=
  fun i => isReal_of_eq (congrFun (mid1_arg4 (W4 m ρ c)) i) (e4_arg4 m ρ c hm4 i)

/-! ## After the second region -/

include hm0 hm2 hm3 hm4 in
theorem e6_v31 : ∀ i, IsReal (W6 m ρ c (Proc.devRef .tc main_v31) i) :=
  fun i => isReal_of_eq (congrFun (W6_arr m ρ c 4) i)
    (region1_real (V5 m ρ) c (e5_v30 m ρ c hm0 hm2) (e5_v17 m ρ c) (e5_v18 m ρ c hm3) (e5_arg4 m ρ c hm4) i)

theorem e6_v17 : ∀ i, IsReal (W6 m ρ c (Proc.devRef .tc main_v17) i) :=
  fun i => isReal_of_eq
    (congrFun ((W6_arr m ρ c 1).trans (((dat1 (V5 m ρ) c).arrAt_in 1 rfl _).trans (A_eq1 (V5 m ρ) c 1))) i) (e5_v17 m ρ c i)

include hm5 in
theorem e6_v19 : ∀ i, IsReal (W6 m ρ c (Proc.devRef .tc main_v19) i) :=
  fun i => isReal_of_eq (congrFun (W6_of_ne m ρ c main_v19 (by decide)) i) (e5_v19 m ρ c hm5 i)

/-! ## At the third region's entry, and after it -/

include hm0 hm2 hm3 hm4 in
theorem e7_v41 : ∀ i, IsReal (W7 m ρ c (Proc.devRef .tc main_v41) i) :=
  mid2_v41 (W6 m ρ c) (e6_v31 m ρ c hm0 hm2 hm3 hm4)

theorem e7_v17 : ∀ i, IsReal (W7 m ρ c (Proc.devRef .tc main_v17) i) :=
  fun i => isReal_of_eq (congrFun (mid2_v17 (W6 m ρ c)) i) (e6_v17 m ρ c i)

include hm5 in
theorem e7_v19 : ∀ i, IsReal (W7 m ρ c (Proc.devRef .tc main_v19) i) :=
  fun i => isReal_of_eq (congrFun (mid2_v19 (W6 m ρ c)) i) (e6_v19 m ρ c hm5 i)

include hm0 hm2 hm3 hm4 hm5 in
/-- The result buffer ends at the zero column. -/
theorem result_zero (i : S100000x1.Idx) : IsZero (W8 m ρ c (Proc.devRef .tc main_v42) i) := by
  have h := region2_zero (V7 m ρ) c (e7_v41 m ρ c hm0 hm2 hm3 hm4) (e7_v17 m ρ c) (e7_v19 m ρ c hm5) i
  have e := congrFun (W8_arr m ρ c 3) i
  unfold IsZero at h ⊢
  exact e.trans h

end

end Cert.KernelIdeal.Gen.Whole

end
-- ==== Proof.RefRun.lean ====
/-
  The reference program as a line of host operations, and its run.

  The reference's @main is a straight line of 98 host operations (a called function's operations standing in its call's
  place). Run from any memory with zero counters, every weakly fair execution terminates, and every buffer ends at the
  fold of the operations' results over the launch contents: the operations applied in order, each to what the ones before
  it left. What that fold holds at the result buffer is read off segment by segment elsewhere.
-/
import proofs.«159109_j29265907155119_2_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- @main's 98 operations, in order (a called function's operations stand in its call's place, spelt `TRef.…`). -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v3 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v19 (broadcastInDim S3300000 ![] bcast_S_S3300000 : (⟨S_, .i32⟩ : BufTy).Contents (Elt F) → (⟨S3300000, .i32⟩ : BufTy).Contents (Elt F)),
    binary main_v3 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)),
    binary main_arg0 main_arg2 main_v32 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg4 main_v50 ((fun l r => Host.dotGeneral dot_S100000x16_S16x1_S100000x1_1_0_0_1_n_n none l r) : (⟨S100000x16, .f32⟩ : BufTy).Contents (Elt F) → (⟨S16x1, .f32⟩ : BufTy).Contents (Elt F) → (⟨S100000x1, .f32⟩ : BufTy).Contents (Elt F)),
    nullary main_c_10 (constantI S_ 32 0#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x1_S3300000x1_S3300000x1_1_0_n_n_0_1_11 x i) : (⟨S100000x1, .f32⟩ : BufTy).Contents (Elt F) → (⟨S3300000x1, .i32⟩ : BufTy).Contents (Elt F) → (⟨S3300000x1, .f32⟩ : BufTy).Contents (Elt F)),
    unary main_v31 main_v58 (broadcastInDim S3300000x1 ![0] bcast_S3300000_S3300000x1_0 : (⟨S3300000, .f32⟩ : BufTy).Contents (Elt F) → (⟨S3300000x1, .f32⟩ : BufTy).Contents (Elt F)),
    binary main_v57 main_v58 main_v59 (mulf : (⟨S3300000x1, .f32⟩ : BufTy).Contents (Elt F) → (⟨S3300000x1, .f32⟩ : BufTy).Contents (Elt F) → (⟨S3300000x1, .f32⟩ : BufTy).Contents (Elt F)),
    nullary main_cst_12 (constant S_ .f32 0x00000000#32),
    unary main_cst_12 main_v60 (broadcastInDim S100000x1 ![] bcast_S_S100000x1 : (⟨S_, .f32⟩ : BufTy).Contents (Elt F) → (⟨S100000x1, .f32⟩ : BufTy).Contents (Elt F)),
    unary main_v6 main_v61 (broadcastInDim S3300000x1 ![0] bcast_S3300000_S3300000x1_0 : (⟨S3300000, .i32⟩ : BufTy).Contents (Elt F) → (⟨S3300000x1, .i32⟩ : BufTy).Contents (Elt F)),
    ternary main_v60 main_v61 main_v59 main_v62 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    unary main_arg5 main_v63 (broadcastInDim S1x1 ![1] bcast_S1_S1x1_1 : (⟨S1, .f32⟩ : BufTy).Contents (Elt F) → (⟨S1x1, .f32⟩ : BufTy).Contents (Elt F)),
    unary main_v63 main_v64 (broadcastInDim S100000x1 ![0, 1] bcast_S1x1_S100000x1_0_1 : (⟨S1x1, .f32⟩ : BufTy).Contents (Elt F) → (⟨S100000x1, .f32⟩ : BufTy).Contents (Elt F)),
    binary main_v62 main_v64 main_v65 (addf : (⟨S100000x1, .f32⟩ : BufTy).Contents (Elt F) → (⟨S100000x1, .f32⟩ : BufTy).Contents (Elt F) → (⟨S100000x1, .f32⟩ : BufTy).Contents (Elt F)),
    TRef.nullary (TRef.of (T := ⟨S_, .f32⟩) main_call2_cst) (constant S_ .f32 0xFF800000#32),
    TRef.binary (TRef.of (T := ⟨S100000x1, .f32⟩) main_v65) (TRef.of (T := ⟨S_, .f32⟩) main_call2_cst) (TRef.of (T := ⟨S100000, .f32⟩) main_call2_v0) (fun x v => Host.reduce FloatOps.maximumf x v reducesTo_S100000x1_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.binary (TRef.of (T := ⟨S100000x1, .f32⟩) main_v65) (TRef.of (T := ⟨S100000x1, .f32⟩) main_call2_v3) (TRef.of (T := ⟨S100000x1, .f32⟩) main_call2_v4) subf,
    TRef.unary (TRef.of (T := ⟨S100000x1, .f32⟩) main_call2_v4) (TRef.of (T := ⟨S100000x1, .f32⟩) main_call2_v5) Host.exp,
    TRef.nullary (TRef.of (T := ⟨S_, .f32⟩) main_call2_cst_1) (constant S_ .f32 0x00000000#32),
    TRef.binary (TRef.of (T := ⟨S100000x1, .f32⟩) main_call2_v5) (TRef.of (T := ⟨S_, .f32⟩) main_call2_cst_1) (TRef.of (T := ⟨S100000, .f32⟩) main_call2_v6) (fun x v => Host.reduceAdd x v reducesTo_S100000x1_S100000_d1 h_S_),
    TRef.unary (TRef.of (T := ⟨S100000, .f32⟩) main_call2_v6) (TRef.of (T := ⟨S100000x1, .f32⟩) main_call2_v7) (broadcastInDim S100000x1 ![0] bcast_S100000_S100000x1_0),
    TRef.unary (TRef.of (T := ⟨S100000x1, .f32⟩) main_call2_v7) (TRef.of (T := ⟨S100000x1, .f32⟩) main_call2_v8) Host.log,
    TRef.binary (TRef.of (T := ⟨S100000x1, .f32⟩) main_call2_v4) (TRef.of (T := ⟨S100000x1, .f32⟩) main_call2_v8) (TRef.of (T := ⟨S100000x1, .f32⟩) main_v66) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., binary_bufs_sub .., unary_bufs_sub .., nullary_bufs_sub .., binary_bufs_sub .., unary_bufs_sub .., unary_bufs_sub .., binary_bufs_sub ..⟩

/-- On every device, for any float values, from any memory with zero counters: every weakly fair execution of @main
    terminates with every buffer at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.ValueP

end
-- ==== Proof.RefTerm.lean ====
/-
  A two-layer graph convolution with self-loops, then a log-softmax along an axis of extent one, written as a few named
  arrays over the ideal floats (the extended reals), and the value of their composition on real inputs: the zero column.

  The graph has 100000 nodes and 3200000 edges; the edge array holds the edges' sources (row 0) and targets (row 1). One
  loop per node is appended to the edge list. With `deg` the in-degree counted with the loops, the weight of an entry e of
  the list is `norm e = deg(src e)^(-1/2) * deg(dst e)^(-1/2)` (the symmetric normalisation D^(-1/2) (A + I) D^(-1/2)), and
  a layer sends node features `h`, a weight matrix `W` and a bias `b` to `out v = b + ∑_{e : dst e = v} norm e * (h W)(src e)`.
  The network is `layer₂ (relu (layer₁ x))` and its output has ONE column; the log-softmax along that column's axis is
  `(h - M) - log (0 + ∑ exp (h - M))` with `M` the row's maximum, the sum having a single term.

  Over the extended reals every array before the log-softmax has real entries whenever the inputs have: each is a sum,
  product, maximum, selection or re-layout of arrays of reals (whatever the index lists and masks are), and the one
  reciprocal square root is taken of a maximum with 1. At a real difference d = h - M the log-softmax is
  d - log (exp d) = 0.
-/
import proofs.«159109_j29265907155119_2_alg».proof.Proof.Gen.ReferenceIdeal
import proofs.«159109_j29265907155119_2_alg».proof.Proof.LibAllReal
import Idealize.ShloMosaic.PureOps.Ideal.Laws
import Idealize.ShloMosaic.Lib.ValueIdx
import Idealize.ShloMosaic.Lib.Pipeline.Value
import Idealize.ShloMosaic.Lib.IdealHost

noncomputable section

namespace Cert.RefValue

open Cert.ReferenceIdeal Cert.ReferenceIdeal.Gen Idealize.ShloMosaic

/-! ## The edge list with self-loops -/

/-- A row of 3200000 node numbers followed by the node numbers 0, 1, …, 99999: one end of every edge, then of every
    self-loop. -/
def withLoops (row : IVec S1x3200000 32) : IVec S3300000 32 :=
  concatenate S3300000 0 [⟨S3200000, (shapeCast S3200000 row shapeCasts_S1x3200000_S3200000)⟩,
    ⟨S100000, (iotaInDim S100000 32 0)⟩] concatenates_S3200000_S100000_S3300000_d0

/-- The source node of every edge and loop (row 0 of the edge array). -/
def srcIdx (ei : IVec S2x3200000 32) : IVec S3300000 32 :=
  withLoops (extractStridedSlice S1x3200000 ![0, 0] ei slices_S2x3200000_S1x3200000_0_0)

/-- The target node of every edge and loop (row 1 of the edge array). -/
def dstIdx (ei : IVec S2x3200000 32) : IVec S3300000 32 :=
  withLoops (extractStridedSlice S1x3200000 ![1, 0] ei slices_S2x3200000_S1x3200000_1_0)

/-- A node number read as an array position: a negative number counts from the end (100000 is added to it). -/
def wrapIdx (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- A list of 3300000 entries as a one-column array. -/
def asCol {α : Type} (v : S3300000.Idx → α) : S3300000x1.Idx → α :=
  broadcastInDim S3300000x1 ![0] bcast_S3300000_S3300000x1_0 v

/-! ## Degrees and edge weights -/

/-- The array of 100000 zeros. -/
def zeroN : FVec Ideal S100000 .f32 :=
  broadcastInDim S100000 ![] bcast_S_S100000 (constant (F := Ideal) S_ .f32 0x00000000#32)

/-- The in-degree of every node, loops included: at node v, the number of entries of the target list that are v. -/
def deg (dst : IVec S3300000 32) : FVec Ideal S100000 .f32 :=
  Host.scatterAdd scatter_S100000_S3300000x1_S3300000_n_0_0_1 zeroN (asCol dst)
    (broadcastInDim S3300000 ![] bcast_S_S3300000 (constant (F := Ideal) S_ .f32 0x3F800000#32))

/-- deg^(-1/2) where the degree is positive and 0 elsewhere; the square root is taken of max(deg, 1). -/
def dinv (dst : IVec S3300000 32) : FVec Ideal S100000 .f32 :=
  select (cmpf (F := Ideal) .ogt (deg dst) zeroN)
    (Host.rsqrt (maximumf (deg dst)
      (broadcastInDim S100000 ![] bcast_S_S100000 (constant (F := Ideal) S_ .f32 0x3F800000#32))))
    (broadcastInDim S100000 ![] bcast_S_S100000 (id (constant (F := Ideal) S_ .f32 0x00000000#32)))

/-- The weight of every edge and loop, from a per-node factor dv: dv at its source times dv at its target. -/
def norm (dv : FVec Ideal S100000 .f32) (src dst : IVec S3300000 32) : FVec Ideal S3300000 .f32 :=
  mulf (Host.gather gather_S100000_S3300000x1_S3300000_n_0_n_n_0_1_1 dv (asCol (wrapIdx src)))
    (Host.gather gather_S100000_S3300000x1_S3300000_n_0_n_n_0_1_1 dv (asCol (wrapIdx dst)))

/-! ## The two layers -/

/-- The array of 100000 × 16 zeros. -/
def zeroN16 : FVec Ideal S100000x16 .f32 :=
  broadcastInDim S100000x16 ![] bcast_S_S100000x16 (constant (F := Ideal) S_ .f32 0x00000000#32)

/-- The first layer before its bias: at node v and feature f, the sum over the list entries with target v of their
    weight times (x W₁) at their source. -/
def agg1 (x : FVec Ideal S100000x128 .f32) (w1 : FVec Ideal S128x16 .f32) (src dst : IVec S3300000 32)
    (nrm : FVec Ideal S3300000 .f32) : FVec Ideal S100000x16 .f32 :=
  Host.scatterAdd scatter_S100000x16_S3300000x1_S3300000x16_1_0_0_1 zeroN16 (asCol dst)
    (mulf (Host.gather gather_S100000x16_S3300000x1_S3300000x16_1_0_n_n_0_1_116
        (Host.dotGeneral dot_S100000x128_S128x16_S100000x16_1_0_0_1_n_n none x w1) (asCol (wrapIdx src)))
      (broadcastInDim S3300000x16 ![0, 1] bcast_S3300000x1_S3300000x16_0_1 (asCol nrm)))

/-- The hidden features: the first layer with its bias, then the positive part. -/
def hidden (x : FVec Ideal S100000x128 .f32) (w1 : FVec Ideal S128x16 .f32) (b1 : FVec Ideal S16 .f32)
    (src dst : IVec S3300000 32) (nrm : FVec Ideal S3300000 .f32) : FVec Ideal S100000x16 .f32 :=
  maximumf (addf (agg1 x w1 src dst nrm)
    (broadcastInDim S100000x16 ![0, 1] bcast_S1x16_S100000x16_0_1 (broadcastInDim S1x16 ![1] bcast_S16_S1x16_1 b1))) zeroN16

/-- The second layer before its bias, from hidden features h: one column. -/
def agg2 (h : FVec Ideal S100000x16 .f32) (w2 : FVec Ideal S16x1 .f32) (src dst : IVec S3300000 32)
    (nrm : FVec Ideal S3300000 .f32) : FVec Ideal S100000x1 .f32 :=
  Host.scatterAdd scatter_S100000x1_S3300000x1_S3300000x1_1_0_0_1
    (broadcastInDim S100000x1 ![] bcast_S_S100000x1 (constant (F := Ideal) S_ .f32 0x00000000#32)) (asCol dst)
    (mulf (Host.gather gather_S100000x1_S3300000x1_S3300000x1_1_0_n_n_0_1_11
        (Host.dotGeneral dot_S100000x16_S16x1_S100000x1_1_0_0_1_n_n none h w2) (asCol (wrapIdx src)))
      (asCol nrm))

/-- The network's output before the log-softmax: the second layer, with its bias, of the hidden features. -/
def logits (h : FVec Ideal S100000x16 .f32) (w2 : FVec Ideal S16x1 .f32) (b2 : FVec Ideal S1 .f32)
    (src dst : IVec S3300000 32) (nrm : FVec Ideal S3300000 .f32) : FVec Ideal S100000x1 .f32 :=
  addf (agg2 h w2 src dst nrm)
    (broadcastInDim S100000x1 ![0, 1] bcast_S1x1_S100000x1_0_1 (broadcastInDim S1x1 ![1] bcast_S1_S1x1_1 b2))

/-! ## The log-softmax along the column axis -/

/-- Each row's maximum, from -∞, then once more the maximum with -∞. -/
def rowMax (h : FVec Ideal S100000x1 .f32) : FVec Ideal S100000 .f32 :=
  maximumf (broadcastInDim S100000 ![] bcast_S_S100000 (constant (F := Ideal) S_ .f32 0xFF800000#32))
    (Host.reduce FloatOps.maximumf h (constant (F := Ideal) S_ .f32 0xFF800000#32) reducesTo_S100000x1_S100000_d1 h_S_)

/-- Every entry minus its row's maximum. -/
def shifted (h : FVec Ideal S100000x1 .f32) : FVec Ideal S100000x1 .f32 :=
  subf h (broadcastInDim S100000x1 ![0] bcast_S100000_S100000x1_0 (rowMax h))

/-- The log-softmax of a one-column array along its column axis. -/
def logSoftmax (h : FVec Ideal S100000x1 .f32) : FVec Ideal S100000x1 .f32 :=
  subf (shifted h) (Host.log (broadcastInDim S100000x1 ![0] bcast_S100000_S100000x1_0
    (Host.reduceAdd (Host.exp (shifted h)) (constant (F := Ideal) S_ .f32 0x00000000#32) reducesTo_S100000x1_S100000_d1 h_S_)))

/-! ## Real inputs give real entries, up to the log-softmax

None of these arrays is computed. The index lists are arbitrary: a gather reads entries of its operand and an
accumulating scatter adds finitely many updates to its operand, wherever the indices point. -/

open Cert.LibReal Cert.RealOps Idealize.ShloMosaic.ValueIdx

theorem asCol_real {v : S3300000.Idx → EReal} (hv : AllReal v) : AllReal (asCol v) :=
  AllReal.broadcastInDim _ hv

theorem zeroN_real : AllReal zeroN := AllReal.broadcastInDim _ AllReal.const_zero

theorem zeroN16_real : AllReal zeroN16 := AllReal.broadcastInDim _ AllReal.const_zero

/-- A degree is a finite sum of ones. -/
theorem deg_real (dst : IVec S3300000 32) : AllReal (deg dst) :=
  AllReal.scatterAdd _ zeroN_real (AllReal.broadcastInDim _ AllReal.const_one) _

/-- max(deg, 1) is a real number at least 1, so its reciprocal square root is real; the other branch is 0. -/
theorem dinv_real (dst : IVec S3300000 32) : AllReal (dinv dst) :=
  AllReal.select _ (AllReal.rsqrt_max_one (deg_real dst) fun _ => one_word) (AllReal.broadcastInDim _ AllReal.const_zero)

theorem norm_real {dv : FVec Ideal S100000 .f32} (hd : AllReal dv) (src dst : IVec S3300000 32) :
    AllReal (norm dv src dst) :=
  AllReal.mulf (AllReal.gather _ hd _) (AllReal.gather _ hd _)

theorem agg1_real {x : FVec Ideal S100000x128 .f32} {w1 : FVec Ideal S128x16 .f32} (src dst : IVec S3300000 32)
    {nrm : FVec Ideal S3300000 .f32} (hx : AllReal x) (hw : AllReal w1) (hn : AllReal nrm) :
    AllReal (agg1 x w1 src dst nrm) :=
  AllReal.scatterAdd _ zeroN16_real
    (AllReal.mulf (AllReal.gather _ (AllReal.dotGeneral _ _ hx hw) _) (AllReal.broadcastInDim _ (asCol_real hn))) _

theorem hidden_real {x : FVec Ideal S100000x128 .f32} {w1 : FVec Ideal S128x16 .f32} {b1 : FVec Ideal S16 .f32}
    (src dst : IVec S3300000 32) {nrm : FVec Ideal S3300000 .f32} (hx : AllReal x) (hw : AllReal w1) (hb : AllReal b1)
    (hn : AllReal nrm) : AllReal (hidden x w1 b1 src dst nrm) :=
  AllReal.maximumf (AllReal.addf (agg1_real src dst hx hw hn) (AllReal.broadcastInDim _ (AllReal.broadcastInDim _ hb)))
    zeroN16_real

theorem agg2_real {h : FVec Ideal S100000x16 .f32} {w2 : FVec Ideal S16x1 .f32} (src dst : IVec S3300000 32)
    {nrm : FVec Ideal S3300000 .f32} (hh : AllReal h) (hw : AllReal w2) (hn : AllReal nrm) :
    AllReal (agg2 h w2 src dst nrm) :=
  AllReal.scatterAdd _ (AllReal.broadcastInDim _ AllReal.const_zero)
    (AllReal.mulf (AllReal.gather _ (AllReal.dotGeneral _ _ hh hw) _) (asCol_real hn)) _

theorem logits_real {h : FVec Ideal S100000x16 .f32} {w2 : FVec Ideal S16x1 .f32} {b2 : FVec Ideal S1 .f32}
    (src dst : IVec S3300000 32) {nrm : FVec Ideal S3300000 .f32} (hh : AllReal h) (hw : AllReal w2) (hb : AllReal b2)
    (hn : AllReal nrm) : AllReal (logits h w2 b2 src dst nrm) :=
  AllReal.addf (agg2_real src dst hh hw hn) (AllReal.broadcastInDim _ (AllReal.broadcastInDim _ hb))

/-! ## The log-softmax of a one-column array of reals is zero -/

/-- Dropping the column axis of a [100000, 1] array leaves [100000]. -/
theorem reduces_col : Shape.Reduces S100000x1 [1] S100000 := by decide

/-- Row p with a column put back is the position (p, q), whatever q : Fin 1 is: there is one column. -/
theorem lift_col (p : Fin 100000) (q : Fin 1) (k : Fin (S100000x1.size 1)) :
    reduces_col.lift (ix1 p) k = ix2 p q := by
  funext c; apply Fin.ext
  fin_cases c
  · rfl
  · show k.val = q.val
    have hk : k.val < 1 := k.isLt
    have := q.isLt
    omega

/-- A list of 100000 entries broadcast to one column reads, at (p, q), the entry p. -/
theorem bcastCol_apply {α : Type} (v : S100000.Idx → α) (p : Fin 100000) (q : Fin 1) :
    broadcastInDim S100000x1 ![0] bcast_S100000_S100000x1_0 v (ix2 p q) = v (ix1 p) := by
  refine broadcastInDim_apply _ _ v (ix2 p q) (ix1 p) fun a => ?_
  match a with
  | ⟨0, _⟩ => rfl

theorem hostLog_apply {s : Shape} {φ : FTy} (x : FVec Ideal s φ) (i : s.Idx) : Host.log x i = Ideal.log (x i) := rfl

theorem hostExp_apply {s : Shape} {φ : FTy} (x : FVec Ideal s φ) (i : s.Idx) : Host.exp x i = Ideal.exp (x i) := rfl

/-- The maximum, from -∞, of a nonempty finite family of reals is a real number (the maximum spelt as the floats'). -/
theorem fold_maximumf_real {ι : Type} (s : Finset ι) (hs : s.Nonempty) (f : ι → EReal) (hf : ∀ i, IsReal (f i)) :
    IsReal (s.fold (FloatOps.maximumf (F := Ideal) (φ := .f32)) (⊥ : EReal) f) := by
  classical
  induction hs using Finset.Nonempty.cons_induction with
  | singleton a => rw [Finset.fold_singleton, Ideal.maximumf_def, max_bot_right]; exact hf a
  | cons a s ha hs ih => rw [Finset.fold_cons, Ideal.maximumf_def]; exact isReal_max (hf a) ih

/-- A sum over an index type with one element is its one term. -/
theorem sum_fin_eq_one {n : ℕ} (hn : n = 1) (f : Fin n → EReal) : ∑ k, f k = f ⟨0, by omega⟩ := by
  subst hn
  exact Fin.sum_univ_one f

/-- A row's maximum is the maximum, from -∞, of its one entry, a real number. -/
theorem rowMax_real {h : FVec Ideal S100000x1 .f32} (hh : AllReal h) : AllReal (rowMax h) := by
  intro i
  unfold rowMax
  rw [maximumf_apply, broadcastInDim_scalar_apply, constant_apply, ninf_word, max_bot_left,
    Host.reduce_eq_fold_single FloatOps.maximumf h _ reducesTo_S100000x1_S100000_d1 reduces_col h_S_, constant_apply,
    ninf_word]
  exact fold_maximumf_real Finset.univ ⟨⟨0, by decide⟩, Finset.mem_univ _⟩ _ fun k => hh _

theorem shifted_real {h : FVec Ideal S100000x1 .f32} (hh : AllReal h) : AllReal (shifted h) :=
  AllReal.subf hh (AllReal.broadcastInDim _ (rowMax_real hh))

/-- With d = h - M real at every position, the log-softmax is d - log (0 + exp d) = 0: the sum along the column axis
    has the one term exp d. -/
theorem logSoftmax_zero {h : FVec Ideal S100000x1 .f32} (hh : AllReal h) : logSoftmax h = fun _ => (0 : EReal) := by
  funext j
  obtain ⟨p, q, rfl⟩ : ∃ (p : Fin 100000) (q : Fin 1), j = ix2 p q := ⟨j 0, j 1, eq_ix2 j⟩
  unfold logSoftmax
  rw [subf_apply, hostLog_apply, bcastCol_apply, hostReduceAdd_apply, Ideal.hostReduceAdd_single _ reduces_col,
    constant_apply, zero_word, sum_fin_eq_one (n := S100000x1.size 1) rfl, hostExp_apply, lift_col p q]
  exact softmax_cell (shifted_real hh _)

end Cert.RefValue

end
-- ==== Proof.RefValue.lean ====
/-
  The reference's result on real inputs is the zero column.

  The reference program is a line of 98 host operations; what a buffer holds after the line is the fold of the operations'
  results over the launch contents. The line is cut into ten consecutive segments. From ANY contents at its entry each
  segment leaves, in the buffer the later segments read, one array of a two-layer graph convolution — the reciprocal
  square roots of the degrees, the edge weights, the first layer, the hidden features, the output column, its rows'
  maxima, the differences from them, the log-softmax — over the buffers it read at entry; the index lists and masks stay
  whatever the entry contents make them, since no step below depends on them. The arguments are never written. So, the
  arguments being arrays of reals, each of these arrays has real entries in turn, and the last, d - log (0 + exp d) at a
  real difference d, is zero.
-/
import proofs.«159109_j29265907155119_2_alg».proof.Proof.RefRun
import proofs.«159109_j29265907155119_2_alg».proof.Proof.RefTerm

noncomputable section

namespace Cert.RefValue

open Cert.ReferenceIdeal Cert.ReferenceIdeal.Gen Cert.ReferenceIdeal.ValueP Idealize.ShloMosaic Idealize.ShloMosaic.TcCoe
  Idealize.SL.Sem Idealize.ShloMosaic.StableHlo Cert.LibReal Cert.RealOps

/-! ## The line in ten segments -/

section Segments

variable {F : FTy → Type} [FloatOps F]

/-- Operations 1–6: the node numbers 0 … 99999 and the two rows of the edge array as lists; the source list with the loops appended. -/
abbrev s0 : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000 ]

/-- Operations 7–21: the target list with the loops appended, the degrees, the mask of the positive ones, and the reciprocal square root of max(deg, 1) (`main_v15`). -/
abbrev s1 : List (HloOp τ sig (Elt F)) :=
  [ binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32) ]

/-- Operations 22–24: the choice between that reciprocal square root and 0 by the mask (`main_v16`). -/
abbrev s2 : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

/-- Operations 25–43: the weight of every list entry (`main_v31`). -/
abbrev s3 : List (HloOp τ sig (Elt F)) :=
  [ nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v3 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v19 (broadcastInDim S3300000 ![] bcast_S_S3300000 : (⟨S_, .i32⟩ : BufTy).Contents (Elt F) → (⟨S3300000, .i32⟩ : BufTy).Contents (Elt F)),
    binary main_v3 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-- Operations 44–63: the first layer with its bias (`main_v48`). -/
abbrev s4 : List (HloOp τ sig (Elt F)) :=
  [ binary main_arg0 main_arg2 main_v32 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v41 main_v42 (mulf : (⟨S3300000x16, .f32⟩ : BufTy).Contents (Elt F) → (⟨S3300000x16, .f32⟩ : BufTy).Contents (Elt F) → (⟨S3300000x16, .f32⟩ : BufTy).Contents (Elt F)),
    nullary main_cst_9 (constant S_ .f32 0x00000000#32),
    unary main_cst_9 main_v43 (broadcastInDim S100000x16 ![] bcast_S_S100000x16 : (⟨S_, .f32⟩ : BufTy).Contents (Elt F) → (⟨S100000x16, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)) ]

/-- Operations 64–66: its positive part, the hidden features (`main_v49`). -/
abbrev s5 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf ]

/-- Operations 67–85: the second layer with its bias, the output column (`main_v65`). -/
abbrev s6 : List (HloOp τ sig (Elt F)) :=
  [ binary main_v49 main_arg4 main_v50 ((fun l r => Host.dotGeneral dot_S100000x16_S16x1_S100000x1_1_0_0_1_n_n none l r) : (⟨S100000x16, .f32⟩ : BufTy).Contents (Elt F) → (⟨S16x1, .f32⟩ : BufTy).Contents (Elt F) → (⟨S100000x1, .f32⟩ : BufTy).Contents (Elt F)),
    nullary main_c_10 (constantI S_ 32 0#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x1_S3300000x1_S3300000x1_1_0_n_n_0_1_11 x i) : (⟨S100000x1, .f32⟩ : BufTy).Contents (Elt F) → (⟨S3300000x1, .i32⟩ : BufTy).Contents (Elt F) → (⟨S3300000x1, .f32⟩ : BufTy).Contents (Elt F)),
    unary main_v31 main_v58 (broadcastInDim S3300000x1 ![0] bcast_S3300000_S3300000x1_0 : (⟨S3300000, .f32⟩ : BufTy).Contents (Elt F) → (⟨S3300000x1, .f32⟩ : BufTy).Contents (Elt F)),
    binary main_v57 main_v58 main_v59 (mulf : (⟨S3300000x1, .f32⟩ : BufTy).Contents (Elt F) → (⟨S3300000x1, .f32⟩ : BufTy).Contents (Elt F) → (⟨S3300000x1, .f32⟩ : BufTy).Contents (Elt F)),
    nullary main_cst_12 (constant S_ .f32 0x00000000#32),
    unary main_cst_12 main_v60 (broadcastInDim S100000x1 ![] bcast_S_S100000x1 : (⟨S_, .f32⟩ : BufTy).Contents (Elt F) → (⟨S100000x1, .f32⟩ : BufTy).Contents (Elt F)),
    unary main_v6 main_v61 (broadcastInDim S3300000x1 ![0] bcast_S3300000_S3300000x1_0 : (⟨S3300000, .i32⟩ : BufTy).Contents (Elt F) → (⟨S3300000x1, .i32⟩ : BufTy).Contents (Elt F)),
    ternary main_v60 main_v61 main_v59 main_v62 ((fun x i u => Host.scatterAdd scatter_S100000x1_S3300000x1_S3300000x1_1_0_0_1 x i u) : (⟨S100000x1, .f32⟩ : BufTy).Contents (Elt F) → (⟨S3300000x1, .i32⟩ : BufTy).Contents (Elt F) → (⟨S3300000x1, .f32⟩ : BufTy).Contents (Elt F) → (⟨S100000x1, .f32⟩ : BufTy).Contents (Elt F)),
    unary main_arg5 main_v63 (broadcastInDim S1x1 ![1] bcast_S1_S1x1_1 : (⟨S1, .f32⟩ : BufTy).Contents (Elt F) → (⟨S1x1, .f32⟩ : BufTy).Contents (Elt F)),
    unary main_v63 main_v64 (broadcastInDim S100000x1 ![0, 1] bcast_S1x1_S100000x1_0_1 : (⟨S1x1, .f32⟩ : BufTy).Contents (Elt F) → (⟨S100000x1, .f32⟩ : BufTy).Contents (Elt F)),
    binary main_v62 main_v64 main_v65 (addf : (⟨S100000x1, .f32⟩ : BufTy).Contents (Elt F) → (⟨S100000x1, .f32⟩ : BufTy).Contents (Elt F) → (⟨S100000x1, .f32⟩ : BufTy).Contents (Elt F)) ]

/-- Operations 86–90: every row's maximum of the output column (`main_call2_v2`). -/
abbrev s7 : List (HloOp τ sig (Elt F)) :=
  [ TRef.nullary (TRef.of (T := ⟨S_, .f32⟩) main_call2_cst) (constant S_ .f32 0xFF800000#32),
    TRef.binary (TRef.of (T := ⟨S100000x1, .f32⟩) main_v65) (TRef.of (T := ⟨S_, .f32⟩) main_call2_cst) (TRef.of (T := ⟨S100000, .f32⟩) main_call2_v0) (fun x v => Host.reduce FloatOps.maximumf x v reducesTo_S100000x1_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- Operations 91–92: the output column minus its rows' maxima (`main_call2_v4`). -/
abbrev s8 : List (HloOp τ sig (Elt F)) :=
  [ TRef.unary (TRef.of (T := ⟨S100000, .f32⟩) main_call2_v2) (TRef.of (T := ⟨S100000x1, .f32⟩) main_call2_v3) (broadcastInDim S100000x1 ![0] bcast_S100000_S100000x1_0),
    TRef.binary (TRef.of (T := ⟨S100000x1, .f32⟩) main_v65) (TRef.of (T := ⟨S100000x1, .f32⟩) main_call2_v3) (TRef.of (T := ⟨S100000x1, .f32⟩) main_call2_v4) subf ]

/-- Operations 93–98: that difference minus the logarithm of the row sums of its exponentials (`main_v66`). -/
abbrev s9 : List (HloOp τ sig (Elt F)) :=
  [ TRef.unary (TRef.of (T := ⟨S100000x1, .f32⟩) main_call2_v4) (TRef.of (T := ⟨S100000x1, .f32⟩) main_call2_v5) Host.exp,
    TRef.nullary (TRef.of (T := ⟨S_, .f32⟩) main_call2_cst_1) (constant S_ .f32 0x00000000#32),
    TRef.binary (TRef.of (T := ⟨S100000x1, .f32⟩) main_call2_v5) (TRef.of (T := ⟨S_, .f32⟩) main_call2_cst_1) (TRef.of (T := ⟨S100000, .f32⟩) main_call2_v6) (fun x v => Host.reduceAdd x v reducesTo_S100000x1_S100000_d1 h_S_),
    TRef.unary (TRef.of (T := ⟨S100000, .f32⟩) main_call2_v6) (TRef.of (T := ⟨S100000x1, .f32⟩) main_call2_v7) (broadcastInDim S100000x1 ![0] bcast_S100000_S100000x1_0),
    TRef.unary (TRef.of (T := ⟨S100000x1, .f32⟩) main_call2_v7) (TRef.of (T := ⟨S100000x1, .f32⟩) main_call2_v8) Host.log,
    TRef.binary (TRef.of (T := ⟨S100000x1, .f32⟩) main_call2_v4) (TRef.of (T := ⟨S100000x1, .f32⟩) main_call2_v8) (TRef.of (T := ⟨S100000x1, .f32⟩) main_v66) subf ]

/-- The program is its ten segments in order. -/
theorem ops_eq : (ops : List (HloOp τ sig (Elt F))) = s0 ++ (s1 ++ (s2 ++ (s3 ++ (s4 ++ (s5 ++ (s6 ++ (s7 ++ (s8 ++ (s9))))))))) := rfl

end Segments

/-- Two lines run one after the other: the second runs from what the first left. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- A list of 3200000 node numbers followed by a list of 100000: the program joins a row of the edge array and the
    node numbers 0 … 99999 (one end of every edge, then of every loop). -/
def joinIdx (a : IVec S3200000 32) (b : IVec S100000 32) : IVec S3300000 32 :=
  concatenate S3300000 0 [⟨S3200000, a⟩, ⟨S100000, b⟩] concatenates_S3200000_S100000_S3300000_d0

/-- The program's six arguments. -/
abbrev args : List (Ref sig .tc) := [main_arg0, main_arg1, main_arg2, main_arg3, main_arg4, main_arg5]

open Idealize.ShloMosaic.ValueIdx in
/-- With d real at every position, d - log (0 + ∑ exp d) = 0, the sum along the column axis having the one term exp d. -/
theorem expLogTail_zero {d : FVec Ideal S100000x1 .f32} (hd : AllReal d) :
    subf d (Host.log (broadcastInDim S100000x1 ![0] bcast_S100000_S100000x1_0
      (Host.reduceAdd (Host.exp d) (constant (F := Ideal) S_ .f32 0x00000000#32) reducesTo_S100000x1_S100000_d1 h_S_)))
      = fun _ => (0 : EReal) := by
  funext j
  obtain ⟨p, q, rfl⟩ : ∃ (p : Fin 100000) (q : Fin 1), j = ix2 p q := ⟨j 0, j 1, eq_ix2 j⟩
  rw [subf_apply, hostLog_apply, bcastCol_apply, hostReduceAdd_apply, Ideal.hostReduceAdd_single _ reduces_col,
    constant_apply, zero_word, sum_fin_eq_one (n := S100000x1.size 1) rfl, hostExp_apply, lift_col p q]
  exact softmax_cell (hd _)

/-! ## What each segment leaves, from any entry contents -/

section Readings

variable (W : Valuation τ sig (Elt Ideal))

/-- The reciprocal square root of max(deg, 1), the degrees counted over the entry's row 1 joined with the entry's node
    numbers. -/
theorem s1_v15 : (after (s1 (F := Ideal)) W (Proc.devRef .tc main_v15) : FVec Ideal S100000 .f32)
    = Host.rsqrt (maximumf (deg (joinIdx (W (Proc.devRef .tc main_v5)) (W (Proc.devRef .tc main_v0))))
        (broadcastInDim S100000 ![] bcast_S_S100000 (constant (F := Ideal) S_ .f32 0x3F800000#32))) := by
  dsimp only [s1]; after_results_simp; rfl

/-- The zero the mask's other branch is filled with. -/
theorem s1_cst3 : (after (s1 (F := Ideal)) W (Proc.devRef .tc main_cst_3) : FVec Ideal S_ .f32)
    = constant (F := Ideal) S_ .f32 0x00000000#32 := by
  dsimp only [s1]; after_results_simp

/-- A choice, by a mask, between two arrays of reals (the second a broadcast scalar). -/
theorem s2_v16 (h15 : AllReal (W (Proc.devRef .tc main_v15) : FVec Ideal S100000 .f32))
    (hc : AllReal (W (Proc.devRef .tc main_cst_3) : FVec Ideal S_ .f32)) :
    AllReal (after (s2 (F := Ideal)) W (Proc.devRef .tc main_v16) : FVec Ideal S100000 .f32) := by
  dsimp only [s2]; after_results_simp
  intro i
  show IsReal (select (W (Proc.devRef .tc main_v12) : IVec S100000 1) (W (Proc.devRef .tc main_v15) : FVec Ideal S100000 .f32)
    (broadcastInDim S100000 ![] bcast_S_S100000 (id (W (Proc.devRef .tc main_cst_3) : FVec Ideal S_ .f32))) i)
  exact AllReal.select _ h15 (AllReal.broadcastInDim _ hc) i

/-- The edge weights from the entry's per-node factor and index lists. -/
theorem s3_v31 : (after (s3 (F := Ideal)) W (Proc.devRef .tc main_v31) : FVec Ideal S3300000 .f32)
    = norm (W (Proc.devRef .tc main_v16)) (W (Proc.devRef .tc main_v3)) (W (Proc.devRef .tc main_v6)) := by
  dsimp only [s3]; after_results_simp; rfl

/-- The first layer with its bias, from the entry's features, parameters, index lists and edge weights. -/
theorem s4_v48 : (after (s4 (F := Ideal)) W (Proc.devRef .tc main_v48) : FVec Ideal S100000x16 .f32)
    = addf (agg1 (W (Proc.devRef .tc main_arg0)) (W (Proc.devRef .tc main_arg2)) (W (Proc.devRef .tc main_v3)) (W (Proc.devRef .tc main_v6)) (W (Proc.devRef .tc main_v31)))
        (broadcastInDim S100000x16 ![0, 1] bcast_S1x16_S100000x16_0_1
          (broadcastInDim S1x16 ![1] bcast_S16_S1x16_1 (W (Proc.devRef .tc main_arg3)))) := by
  dsimp only [s4]; after_results_simp; rfl

/-- The positive part of an array of reals. -/
theorem s5_v49 (h48 : AllReal (W (Proc.devRef .tc main_v48) : FVec Ideal S100000x16 .f32)) :
    AllReal (after (s5 (F := Ideal)) W (Proc.devRef .tc main_v49) : FVec Ideal S100000x16 .f32) := by
  dsimp only [s5]; after_results_simp
  intro i
  show IsReal (maximumf (W (Proc.devRef .tc main_v48) : FVec Ideal S100000x16 .f32)
    (broadcastInDim S100000x16 ![] bcast_S_S100000x16 (constant (F := Ideal) S_ .f32 0x00000000#32)) i)
  exact AllReal.maximumf h48 (AllReal.broadcastInDim _ AllReal.const_zero) i

/-- The output column from the entry's hidden features, second-layer parameters, index lists and edge weights. -/
theorem s6_v65 : (after (s6 (F := Ideal)) W (Proc.devRef .tc main_v65) : FVec Ideal S100000x1 .f32)
    = logits (W (Proc.devRef .tc main_v49)) (W (Proc.devRef .tc main_arg4)) (W (Proc.devRef .tc main_arg5)) (W (Proc.devRef .tc main_v3)) (W (Proc.devRef .tc main_v6))
        (W (Proc.devRef .tc main_v31)) := by
  dsimp only [s6]; after_results_simp; rfl

attribute [local irreducible] Host.reduce in
/-- The rows' maxima of an output column of reals are real. -/
theorem s7_v2 (h65 : AllReal (W (Proc.devRef .tc main_v65) : FVec Ideal S100000x1 .f32)) :
    AllReal (after (s7 (F := Ideal)) W (Proc.devRef .tc main_call2_v2) : FVec Ideal S100000 .f32) := by
  dsimp only [s7]; after_results_simp
  intro i
  show IsReal (maximumf (broadcastInDim S100000 ![] bcast_S_S100000 (constant (F := Ideal) S_ .f32 0xFF800000#32))
    (Host.reduce FloatOps.maximumf (W (Proc.devRef .tc main_v65) : FVec Ideal S100000x1 .f32)
      (constant (F := Ideal) S_ .f32 0xFF800000#32) reducesTo_S100000x1_S100000_d1 h_S_) i)
  exact rowMax_real h65 i

/-- The output column minus its rows' maxima, both of reals. -/
theorem s8_v4 (h65 : AllReal (W (Proc.devRef .tc main_v65) : FVec Ideal S100000x1 .f32))
    (h2 : AllReal (W (Proc.devRef .tc main_call2_v2) : FVec Ideal S100000 .f32)) :
    AllReal (after (s8 (F := Ideal)) W (Proc.devRef .tc main_call2_v4) : FVec Ideal S100000x1 .f32) := by
  dsimp only [s8]; after_results_simp
  intro i
  show IsReal (subf (F := Ideal) (W (Proc.devRef .tc main_v65) : FVec Ideal S100000x1 .f32)
    (broadcastInDim S100000x1 ![0] bcast_S100000_S100000x1_0 (W (Proc.devRef .tc main_call2_v2) : FVec Ideal S100000 .f32)) i)
  exact AllReal.subf h65 (AllReal.broadcastInDim _ h2) i

/-- The log-softmax from a real difference d: d - log (0 + ∑ exp d) = 0. -/
theorem s9_v66 (h4 : AllReal (W (Proc.devRef .tc main_call2_v4) : FVec Ideal S100000x1 .f32)) :
    (after (s9 (F := Ideal)) W (Proc.devRef .tc main_v66) : FVec Ideal S100000x1 .f32) = fun _ => (0 : EReal) := by
  dsimp only [s9]; after_results_simp
  funext i
  show subf (F := Ideal) (W (Proc.devRef .tc main_call2_v4) : FVec Ideal S100000x1 .f32)
    (Host.log (broadcastInDim S100000x1 ![0] bcast_S100000_S100000x1_0
      (Host.reduceAdd (Host.exp (W (Proc.devRef .tc main_call2_v4) : FVec Ideal S100000x1 .f32))
        (constant (F := Ideal) S_ .f32 0x00000000#32) reducesTo_S100000x1_S100000_d1 h_S_))) i = 0
  exact congrFun (expLogTail_zero h4) i

/-! No segment writes an argument; the edge weights and the output column are left alone by the segments between
their writing and their last reading. -/

theorem s0_keeps (r : Ref sig .tc) (hr : r ∈ args) :
    after (s0 (F := Ideal)) W (Proc.devRef .tc r) = W (Proc.devRef .tc r) := by
  simp only [args, List.mem_cons, List.mem_nil_iff, or_false] at hr
  rcases hr with rfl | rfl | rfl | rfl | rfl | rfl <;> (dsimp only [s0]; after_results_simp)

theorem s1_keeps (r : Ref sig .tc) (hr : r ∈ args) :
    after (s1 (F := Ideal)) W (Proc.devRef .tc r) = W (Proc.devRef .tc r) := by
  simp only [args, List.mem_cons, List.mem_nil_iff, or_false] at hr
  rcases hr with rfl | rfl | rfl | rfl | rfl | rfl <;> (dsimp only [s1]; after_results_simp)

theorem s2_keeps (r : Ref sig .tc) (hr : r ∈ args) :
    after (s2 (F := Ideal)) W (Proc.devRef .tc r) = W (Proc.devRef .tc r) := by
  simp only [args, List.mem_cons, List.mem_nil_iff, or_false] at hr
  rcases hr with rfl | rfl | rfl | rfl | rfl | rfl <;> (dsimp only [s2]; after_results_simp)

theorem s3_keeps (r : Ref sig .tc) (hr : r ∈ args) :
    after (s3 (F := Ideal)) W (Proc.devRef .tc r) = W (Proc.devRef .tc r) := by
  simp only [args, List.mem_cons, List.mem_nil_iff, or_false] at hr
  rcases hr with rfl | rfl | rfl | rfl | rfl | rfl <;> (dsimp only [s3]; after_results_simp)

theorem s4_keeps (r : Ref sig .tc) (hr : r ∈ args) :
    after (s4 (F := Ideal)) W (Proc.devRef .tc r) = W (Proc.devRef .tc r) := by
  simp only [args, List.mem_cons, List.mem_nil_iff, or_false] at hr
  rcases hr with rfl | rfl | rfl | rfl | rfl | rfl <;> (dsimp only [s4]; after_results_simp)

theorem s5_keeps (r : Ref sig .tc) (hr : r ∈ args) :
    after (s5 (F := Ideal)) W (Proc.devRef .tc r) = W (Proc.devRef .tc r) := by
  simp only [args, List.mem_cons, List.mem_nil_iff, or_false] at hr
  rcases hr with rfl | rfl | rfl | rfl | rfl | rfl <;> (dsimp only [s5]; after_results_simp)

theorem s6_keeps (r : Ref sig .tc) (hr : r ∈ args) :
    after (s6 (F := Ideal)) W (Proc.devRef .tc r) = W (Proc.devRef .tc r) := by
  simp only [args, List.mem_cons, List.mem_nil_iff, or_false] at hr
  rcases hr with rfl | rfl | rfl | rfl | rfl | rfl <;> (dsimp only [s6]; after_results_simp)

theorem s7_keeps (r : Ref sig .tc) (hr : r ∈ args) :
    after (s7 (F := Ideal)) W (Proc.devRef .tc r) = W (Proc.devRef .tc r) := by
  simp only [args, List.mem_cons, List.mem_nil_iff, or_false] at hr
  rcases hr with rfl | rfl | rfl | rfl | rfl | rfl <;> (dsimp only [s7]; after_results_simp)

theorem s8_keeps (r : Ref sig .tc) (hr : r ∈ args) :
    after (s8 (F := Ideal)) W (Proc.devRef .tc r) = W (Proc.devRef .tc r) := by
  simp only [args, List.mem_cons, List.mem_nil_iff, or_false] at hr
  rcases hr with rfl | rfl | rfl | rfl | rfl | rfl <;> (dsimp only [s8]; after_results_simp)

theorem s9_keeps (r : Ref sig .tc) (hr : r ∈ args) :
    after (s9 (F := Ideal)) W (Proc.devRef .tc r) = W (Proc.devRef .tc r) := by
  simp only [args, List.mem_cons, List.mem_nil_iff, or_false] at hr
  rcases hr with rfl | rfl | rfl | rfl | rfl | rfl <;> (dsimp only [s9]; after_results_simp)

theorem s4_keeps_v31 : after (s4 (F := Ideal)) W (Proc.devRef .tc main_v31) = W (Proc.devRef .tc main_v31) := by
  dsimp only [s4]; after_results_simp

theorem s5_keeps_v31 : after (s5 (F := Ideal)) W (Proc.devRef .tc main_v31) = W (Proc.devRef .tc main_v31) := by
  dsimp only [s5]; after_results_simp

theorem s7_keeps_v65 : after (s7 (F := Ideal)) W (Proc.devRef .tc main_v65) = W (Proc.devRef .tc main_v65) := by
  dsimp only [s7]; after_results_simp

/-! ## The contents after each segment, from any launch contents

`Ak W` is what the buffers hold after the first k + 1 segments, run from contents `W`. -/

abbrev A0 : Valuation τ sig (Elt Ideal) := after (s0 (F := Ideal)) W
abbrev A1 : Valuation τ sig (Elt Ideal) := after (s1 (F := Ideal)) (A0 W)
abbrev A2 : Valuation τ sig (Elt Ideal) := after (s2 (F := Ideal)) (A1 W)
abbrev A3 : Valuation τ sig (Elt Ideal) := after (s3 (F := Ideal)) (A2 W)
abbrev A4 : Valuation τ sig (Elt Ideal) := after (s4 (F := Ideal)) (A3 W)
abbrev A5 : Valuation τ sig (Elt Ideal) := after (s5 (F := Ideal)) (A4 W)
abbrev A6 : Valuation τ sig (Elt Ideal) := after (s6 (F := Ideal)) (A5 W)
abbrev A7 : Valuation τ sig (Elt Ideal) := after (s7 (F := Ideal)) (A6 W)
abbrev A8 : Valuation τ sig (Elt Ideal) := after (s8 (F := Ideal)) (A7 W)
abbrev A9 : Valuation τ sig (Elt Ideal) := after (s9 (F := Ideal)) (A8 W)

/-- The whole line is the ten segments run in turn. -/
theorem ops_after : after (ops (F := Ideal)) W = A9 W := by
  rw [ops_eq, after_append, after_append, after_append, after_append, after_append, after_append, after_append,
    after_append, after_append]

/-- An array equal to an array of reals is an array of reals. -/
theorem real_of_eq {s : Shape} {x y : s.Idx → EReal} (e : x = y) (h : AllReal y) : AllReal x := e ▸ h

/-- The first four segments leave the arguments alone. -/
theorem A3_keeps (r : Ref sig .tc) (hr : r ∈ args) : A3 W (Proc.devRef .tc r) = W (Proc.devRef .tc r) :=
  (s3_keeps _ r hr).trans ((s2_keeps _ r hr).trans ((s1_keeps _ r hr).trans (s0_keeps _ r hr)))

/-- The first six segments leave the arguments alone. -/
theorem A5_keeps (r : Ref sig .tc) (hr : r ∈ args) : A5 W (Proc.devRef .tc r) = W (Proc.devRef .tc r) :=
  (s5_keeps _ r hr).trans ((s4_keeps _ r hr).trans (A3_keeps W r hr))

/-- The whole line leaves the arguments alone. -/
theorem whole_keeps (r : Ref sig .tc) (hr : r ∈ args) :
    after (ops (F := Ideal)) W (Proc.devRef .tc r) = W (Proc.devRef .tc r) :=
  (congrFun (ops_after W) _).trans ((s9_keeps _ r hr).trans ((s8_keeps _ r hr).trans ((s7_keeps _ r hr).trans
    ((s6_keeps _ r hr).trans (A5_keeps W r hr)))))

/-- The reciprocal square root of max(deg, 1) is real: the maximum is a real number at least 1. -/
theorem real_v15 : AllReal (A1 W (Proc.devRef .tc main_v15) : FVec Ideal S100000 .f32) :=
  real_of_eq (s1_v15 _) (AllReal.rsqrt_max_one (deg_real _) fun _ => one_word)

theorem real_cst3 : AllReal (A1 W (Proc.devRef .tc main_cst_3) : FVec Ideal S_ .f32) :=
  real_of_eq (s1_cst3 _) AllReal.const_zero

/-- The per-node factor deg^(-1/2) (0 where the degree is 0) is real. -/
theorem real_v16 : AllReal (A2 W (Proc.devRef .tc main_v16) : FVec Ideal S100000 .f32) :=
  s2_v16 _ (real_v15 W) (real_cst3 W)

/-- The edge weights are real. -/
theorem real_v31 : AllReal (A3 W (Proc.devRef .tc main_v31) : FVec Ideal S3300000 .f32) :=
  real_of_eq (s3_v31 _) (norm_real (real_v16 W) _ _)

section RealArguments

variable (a0 : AllReal (W (Proc.devRef .tc main_arg0) : FVec Ideal S100000x128 .f32))
  (a2 : AllReal (W (Proc.devRef .tc main_arg2) : FVec Ideal S128x16 .f32))
  (a3 : AllReal (W (Proc.devRef .tc main_arg3) : FVec Ideal S16 .f32))
  (a4 : AllReal (W (Proc.devRef .tc main_arg4) : FVec Ideal S16x1 .f32))
  (a5 : AllReal (W (Proc.devRef .tc main_arg5) : FVec Ideal S1 .f32))

include a0 a2 a3 in
/-- The first layer with its bias is real. -/
theorem real_v48 : AllReal (A4 W (Proc.devRef .tc main_v48) : FVec Ideal S100000x16 .f32) :=
  real_of_eq (s4_v48 _)
    (AllReal.addf
      (agg1_real _ _ (real_of_eq (A3_keeps W main_arg0 (by decide)) a0) (real_of_eq (A3_keeps W main_arg2 (by decide)) a2)
        (real_v31 W))
      (AllReal.broadcastInDim _ (AllReal.broadcastInDim _ (real_of_eq (A3_keeps W main_arg3 (by decide)) a3))))

include a0 a2 a3 in
/-- The hidden features are real. -/
theorem real_v49 : AllReal (A5 W (Proc.devRef .tc main_v49) : FVec Ideal S100000x16 .f32) :=
  s5_v49 _ (real_v48 W a0 a2 a3)

/-- The edge weights are still there, and real, after the first layer. -/
theorem real_v31' : AllReal (A5 W (Proc.devRef .tc main_v31) : FVec Ideal S3300000 .f32) :=
  real_of_eq ((s5_keeps_v31 _).trans (s4_keeps_v31 _)) (real_v31 W)

include a0 a2 a3 a4 a5 in
/-- The output column is real. -/
theorem real_v65 : AllReal (A6 W (Proc.devRef .tc main_v65) : FVec Ideal S100000x1 .f32) :=
  real_of_eq (s6_v65 _)
    (logits_real _ _ (real_v49 W a0 a2 a3) (real_of_eq (A5_keeps W main_arg4 (by decide)) a4)
      (real_of_eq (A5_keeps W main_arg5 (by decide)) a5) (real_v31' W))

include a0 a2 a3 a4 a5 in
/-- Its rows' maxima are real. -/
theorem real_v2 : AllReal (A7 W (Proc.devRef .tc main_call2_v2) : FVec Ideal S100000 .f32) :=
  s7_v2 _ (real_v65 W a0 a2 a3 a4 a5)

include a0 a2 a3 a4 a5 in
/-- The differences from the rows' maxima are real. -/
theorem real_v4 : AllReal (A8 W (Proc.devRef .tc main_call2_v4) : FVec Ideal S100000x1 .f32) :=
  s8_v4 _ (real_of_eq (s7_keeps_v65 _) (real_v65 W a0 a2 a3 a4 a5)) (real_v2 W a0 a2 a3 a4 a5)

include a0 a2 a3 a4 a5 in
/-- The log-softmax is zero. -/
theorem zero_v66 : (A9 W (Proc.devRef .tc main_v66) : FVec Ideal S100000x1 .f32) = fun _ => (0 : EReal) :=
  s9_v66 _ (real_v4 W a0 a2 a3 a4 a5)

end RealArguments

end Readings

/-! ## The result -/

/-- The line leaves argument 0 as it was at launch. -/
theorem kept_arg0 (m : (ℓ : Loc Cert.ReferenceIdeal.nD Cert.ReferenceIdeal.τ Cert.ReferenceIdeal.sig) → Buf (Elt Ideal) ℓ)
    (c : Dev Cert.ReferenceIdeal.nD) :
    Idealize.ShloMosaic.StableHlo.after (Cert.ReferenceIdeal.ValueP.ops (F := Ideal))
        (Idealize.ShloMosaic.StableHlo.launchContents m c) (Proc.devRef .tc Cert.ReferenceIdeal.main_arg0)
      = m ((c.tc : Thread Cert.ReferenceIdeal.nD Cert.ReferenceIdeal.τ).loc Cert.ReferenceIdeal.main_arg0) :=
  (whole_keeps _ main_arg0 (by decide)).trans rfl

/-- The line leaves argument 1 as it was at launch. -/
theorem kept_arg1 (m : (ℓ : Loc Cert.ReferenceIdeal.nD Cert.ReferenceIdeal.τ Cert.ReferenceIdeal.sig) → Buf (Elt Ideal) ℓ)
    (c : Dev Cert.ReferenceIdeal.nD) :
    Idealize.ShloMosaic.StableHlo.after (Cert.ReferenceIdeal.ValueP.ops (F := Ideal))
        (Idealize.ShloMosaic.StableHlo.launchContents m c) (Proc.devRef .tc Cert.ReferenceIdeal.main_arg1)
      = m ((c.tc : Thread Cert.ReferenceIdeal.nD Cert.ReferenceIdeal.τ).loc Cert.ReferenceIdeal.main_arg1) :=
  (whole_keeps _ main_arg1 (by decide)).trans rfl

/-- The line leaves argument 2 as it was at launch. -/
theorem kept_arg2 (m : (ℓ : Loc Cert.ReferenceIdeal.nD Cert.ReferenceIdeal.τ Cert.ReferenceIdeal.sig) → Buf (Elt Ideal) ℓ)
    (c : Dev Cert.ReferenceIdeal.nD) :
    Idealize.ShloMosaic.StableHlo.after (Cert.ReferenceIdeal.ValueP.ops (F := Ideal))
        (Idealize.ShloMosaic.StableHlo.launchContents m c) (Proc.devRef .tc Cert.ReferenceIdeal.main_arg2)
      = m ((c.tc : Thread Cert.ReferenceIdeal.nD Cert.ReferenceIdeal.τ).loc Cert.ReferenceIdeal.main_arg2) :=
  (whole_keeps _ main_arg2 (by decide)).trans rfl

/-- The line leaves argument 3 as it was at launch. -/
theorem kept_arg3 (m : (ℓ : Loc Cert.ReferenceIdeal.nD Cert.ReferenceIdeal.τ Cert.ReferenceIdeal.sig) → Buf (Elt Ideal) ℓ)
    (c : Dev Cert.ReferenceIdeal.nD) :
    Idealize.ShloMosaic.StableHlo.after (Cert.ReferenceIdeal.ValueP.ops (F := Ideal))
        (Idealize.ShloMosaic.StableHlo.launchContents m c) (Proc.devRef .tc Cert.ReferenceIdeal.main_arg3)
      = m ((c.tc : Thread Cert.ReferenceIdeal.nD Cert.ReferenceIdeal.τ).loc Cert.ReferenceIdeal.main_arg3) :=
  (whole_keeps _ main_arg3 (by decide)).trans rfl

/-- The line leaves argument 4 as it was at launch. -/
theorem kept_arg4 (m : (ℓ : Loc Cert.ReferenceIdeal.nD Cert.ReferenceIdeal.τ Cert.ReferenceIdeal.sig) → Buf (Elt Ideal) ℓ)
    (c : Dev Cert.ReferenceIdeal.nD) :
    Idealize.ShloMosaic.StableHlo.after (Cert.ReferenceIdeal.ValueP.ops (F := Ideal))
        (Idealize.ShloMosaic.StableHlo.launchContents m c) (Proc.devRef .tc Cert.ReferenceIdeal.main_arg4)
      = m ((c.tc : Thread Cert.ReferenceIdeal.nD Cert.ReferenceIdeal.τ).loc Cert.ReferenceIdeal.main_arg4) :=
  (whole_keeps _ main_arg4 (by decide)).trans rfl

/-- The line leaves argument 5 as it was at launch. -/
theorem kept_arg5 (m : (ℓ : Loc Cert.ReferenceIdeal.nD Cert.ReferenceIdeal.τ Cert.ReferenceIdeal.sig) → Buf (Elt Ideal) ℓ)
    (c : Dev Cert.ReferenceIdeal.nD) :
    Idealize.ShloMosaic.StableHlo.after (Cert.ReferenceIdeal.ValueP.ops (F := Ideal))
        (Idealize.ShloMosaic.StableHlo.launchContents m c) (Proc.devRef .tc Cert.ReferenceIdeal.main_arg5)
      = m ((c.tc : Thread Cert.ReferenceIdeal.nD Cert.ReferenceIdeal.τ).loc Cert.ReferenceIdeal.main_arg5) :=
  (whole_keeps _ main_arg5 (by decide)).trans rfl

/-- On arguments all of whose float entries are real numbers, the reference's result is the zero column. -/
theorem result_zero (m : (ℓ : Loc Cert.ReferenceIdeal.nD Cert.ReferenceIdeal.τ Cert.ReferenceIdeal.sig) → Buf (Elt Ideal) ℓ)
    (c : Dev Cert.ReferenceIdeal.nD)
    (h0 : ∀ i, IsReal ((m ((c.tc : Thread Cert.ReferenceIdeal.nD Cert.ReferenceIdeal.τ).loc Cert.ReferenceIdeal.main_arg0) : FVec Ideal Cert.ReferenceIdeal.S100000x128 .f32) i))
    (h2 : ∀ i, IsReal ((m ((c.tc : Thread Cert.ReferenceIdeal.nD Cert.ReferenceIdeal.τ).loc Cert.ReferenceIdeal.main_arg2) : FVec Ideal Cert.ReferenceIdeal.S128x16 .f32) i))
    (h3 : ∀ i, IsReal ((m ((c.tc : Thread Cert.ReferenceIdeal.nD Cert.ReferenceIdeal.τ).loc Cert.ReferenceIdeal.main_arg3) : FVec Ideal Cert.ReferenceIdeal.S16 .f32) i))
    (h4 : ∀ i, IsReal ((m ((c.tc : Thread Cert.ReferenceIdeal.nD Cert.ReferenceIdeal.τ).loc Cert.ReferenceIdeal.main_arg4) : FVec Ideal Cert.ReferenceIdeal.S16x1 .f32) i))
    (h5 : ∀ i, IsReal ((m ((c.tc : Thread Cert.ReferenceIdeal.nD Cert.ReferenceIdeal.τ).loc Cert.ReferenceIdeal.main_arg5) : FVec Ideal Cert.ReferenceIdeal.S1 .f32) i)) :
    Idealize.ShloMosaic.StableHlo.after (Cert.ReferenceIdeal.ValueP.ops (F := Ideal))
        (Idealize.ShloMosaic.StableHlo.launchContents m c) (Proc.devRef .tc Cert.ReferenceIdeal.main_v66)
      = fun _ => (0 : EReal) :=
  (congrFun (ops_after (launchContents m c)) _).trans (zero_v66 (launchContents m c) h0 h2 h3 h4 h5)

end Cert.RefValue

end
-- ==== Proof.LibFinite.lean ====
/-
  "Every entry is finite", read back: one array's conjunct of a finiteness precondition makes every entry real.

  The precondition "every |x| is below +∞" is a reduction by `and`, over all axes and from the constant 1, of
  the entrywise comparison of `|x|` with the word `0x7F800000` broadcast from a scalar. The word is `+∞`, and on extended
  reals `max a (−a) < ⊤` excludes exactly `⊤` and `⊥`: the entry is a real number.
-/
import proofs.«159109_j29265907155119_2_alg».proof.Proof.LibReal
import Idealize.ShloMosaic.Lib.ReduceAll
import Idealize.ShloMosaic.Lib.ValueIdx
import Idealize.ShloMosaic.PureOps.Ideal.Laws

noncomputable section

namespace Cert.LibFinite

open Idealize.ShloMosaic Idealize.ShloMosaic.ValueIdx Cert.LibReal

/-- The rank-0 shape has one index. -/
instance : Subsingleton (⟨0, ![]⟩ : Shape).Idx := ⟨fun a b => funext fun d => d.elim0⟩

/-- The word `0x7F800000` is +∞. -/
theorem inf_word : Ideal.ofBits .f32 0x7F800000#32 = (⊤ : EReal) := by simp [Ideal.ofBits, Ideal.ieee]

/-- An extended real whose absolute value compares below +∞ is a real number. -/
theorem isReal_of_abs_lt (a : EReal)
    (h : FloatOps.cmpf (F := Ideal) (φ := .f32) .olt (FloatOps.hostAbsf a) (FloatOps.ofBits .f32 0x7F800000#32) = 1#1) : IsReal a := by
  have hlt : max a (-a) < ⊤ := by
    by_contra hn
    have h0 : FloatOps.cmpf (F := Ideal) (φ := .f32) .olt (FloatOps.hostAbsf a) (FloatOps.ofBits .f32 0x7F800000#32) = 0#1 := by
      show Ideal.cmp .olt (max a (-a)) (Ideal.ofBits .f32 0x7F800000#32) = 0#1
      rw [inf_word]
      unfold Ideal.cmp
      simp [hn]
    rw [h0] at h
    exact absurd h (by decide)
  induction a using EReal.rec with
  | bot => exact absurd hlt (by simp)
  | coe r => exact ⟨r, rfl⟩
  | top => exact absurd hlt (by simp)

/-- One array's conjunct: "all entries' absolute values are below +∞" (the reduction read at its one index) makes every
    entry real. -/
theorem real_of_all {s : Shape} {axes : List (Fin s.rank)} (A : FVec Ideal s .f32)
    (bc : (⟨0, ![]⟩ : Shape).BroadcastsInDim s (![] : Fin 0 → Fin s.rank))
    (rd : s.ReducesTo axes ⟨0, ![]⟩) (hS : 0 < (⟨0, ![]⟩ : Shape).numel)
    (h : Host.reduce IntOp.andi (cmpf .olt (Host.absf A) (broadcastInDim s ![] bc (constant ⟨0, ![]⟩ .f32 0x7F800000#32)))
      (constantI ⟨0, ![]⟩ 1 1#1) rd hS ix0 = 1#1)
    (i : s.Idx) : IsReal (A i) :=
  isReal_of_abs_lt (A i) (Host.reduce_andi_all _ _ rd hS ix0 h i)

end Cert.LibFinite

end
-- ==== Proof.Finite.lean ====
/-
  The precondition, read back: every entry of every float argument is a real number.

  "Every float input is finite" is the conjunction, over the five float arguments, of "all entries' absolute values
  are below +∞". The conjunction of bits is 1 exactly when each conjunct is, and each conjunct makes every entry of its
  array a real number.
-/
import proofs.«159109_j29265907155119_2_alg».proof.Pre_finite_inputs
import proofs.«159109_j29265907155119_2_alg».proof.Proof.LibFinite
import Idealize.ShloMosaic.Lib.Affine

noncomputable section

namespace Cert.Finite

open Idealize.ShloMosaic Idealize.ShloMosaic.ValueIdx Cert.LibReal Cert.LibFinite Cert.Pre_finite_inputs

/-- If the finiteness predicate of the six arguments is all ones, the five float arguments have real entries. -/
theorem reals_of_pre [Cert.Pre_finite_inputs.Facts] (a0 : FVec Ideal S100000x128 .f32) (a1 : IVec S2x3200000 32) (a2 : FVec Ideal S128x16 .f32)
    (a3 : FVec Ideal S16 .f32) (a4 : FVec Ideal S16x1 .f32) (a5 : FVec Ideal S1 .f32)
    (h : fn (F := Ideal) a0 a1 a2 a3 a4 a5 = fun _ => 1#1) :
    (∀ i, IsReal (a0 i)) ∧ (∀ i, IsReal (a2 i)) ∧ (∀ i, IsReal (a3 i)) ∧ (∀ i, IsReal (a4 i)) ∧ (∀ i, IsReal (a5 i)) := by
  have h' : fn (F := Ideal) a0 a1 a2 a3 a4 a5 ix0 = 1#1 := congrFun h ix0
  dsimp only [fn, fn_part1, andi] at h'
  obtain ⟨h0123_4, h5⟩ := IntOp.andi_eq_one.mp h'
  obtain ⟨h0123, h4⟩ := IntOp.andi_eq_one.mp h0123_4
  obtain ⟨h012, h3⟩ := IntOp.andi_eq_one.mp h0123
  obtain ⟨h0, h2⟩ := IntOp.andi_eq_one.mp h012
  exact ⟨real_of_all a0 _ _ _ h0, real_of_all a2 _ _ _ h2, real_of_all a3 _ _ _ h3, real_of_all a4 _ _ _ h4,
    real_of_all a5 _ _ _ h5⟩

end Cert.Finite

end
-- ==== Proof.lean ====
/-
  The certificate of a two-layer graph convolution with a log-softmax over ONE output feature.

  Both programs compute, for a graph with self-loops added and the symmetric normalisation d = deg^(-1/2),
      out = log_softmax (Â · relu (Â · x W1 + b1) · W2 + b2),   Â = D^(-1/2) (A + I) D^(-1/2),
  the kernel with the normalisation folded into three blocked regions (d · (x W1); d · (relu (d · agg + b1) W2); the
  log-softmax of d · agg + b2) around gathers and scatter-adds on the host, the reference with one weight d[src] · d[dst]
  per edge. The output has a single column, and a log-softmax along an axis of extent one is
      (y - M) - log (0 + exp (y - M)),   M the maximum of the row, whose only entry is y,
  which is 0 whenever y - M is a real number. Under the precondition every float argument has real entries; sums,
  products, maxima, selections, gathers, scatter-adds and rsqrt (max (deg, 1)) keep entries real; so on both sides the
  pre-softmax column is real and both results are the zero column. Nothing else about the two arrangements is compared.

  The frames of the two kernel programs are the generated ones; the reference's frame and result come from its run as a
  line of host operations; the kernel's result is read off its run region by region.
-/
import proofs.«159109_j29265907155119_2_alg».proof.Defs
import proofs.«159109_j29265907155119_2_alg».proof.Proof.Gen.Kernel
import proofs.«159109_j29265907155119_2_alg».proof.Proof.Gen.Kernel.Frame
import proofs.«159109_j29265907155119_2_alg».proof.Proof.Gen.KernelIdeal
import proofs.«159109_j29265907155119_2_alg».proof.Proof.Gen.KernelIdeal.Frame
import proofs.«159109_j29265907155119_2_alg».proof.Proof.Gen.ReferenceIdeal
import proofs.«159109_j29265907155119_2_alg».proof.Proof.Gen.Pre_finite_inputs
import proofs.«159109_j29265907155119_2_alg».proof.Proof.KernelRun
import proofs.«159109_j29265907155119_2_alg».proof.Proof.KernelValue
import proofs.«159109_j29265907155119_2_alg».proof.Proof.RefRun
import proofs.«159109_j29265907155119_2_alg».proof.Proof.RefValue
import proofs.«159109_j29265907155119_2_alg».proof.Proof.Finite
import Idealize.ShloMosaic.Adequacy
import Idealize.ShloMosaic.Init

noncomputable section

namespace Cert.Proof

open Idealize.ShloMosaic Idealize.ShloMosaic.TcCoe Idealize.SL.Sem Cert.LibReal

/-- The kernel as printed runs, terminates, and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs, terminates, and leaves its arguments unchanged: no operation of its line writes one. -/
theorem frame_ri : Cert.frame_ReferenceIdeal := fun m ρ _ =>
  (θ_run Cert.ReferenceIdeal.defs _ _).mono
    (fun r h c => ⟨(h c Cert.ReferenceIdeal.main_arg0).trans (Cert.RefValue.kept_arg0 m c),
      (h c Cert.ReferenceIdeal.main_arg1).trans (Cert.RefValue.kept_arg1 m c),
      (h c Cert.ReferenceIdeal.main_arg2).trans (Cert.RefValue.kept_arg2 m c),
      (h c Cert.ReferenceIdeal.main_arg3).trans (Cert.RefValue.kept_arg3 m c),
      (h c Cert.ReferenceIdeal.main_arg4).trans (Cert.RefValue.kept_arg4 m c),
      (h c Cert.ReferenceIdeal.main_arg5).trans (Cert.RefValue.kept_arg5 m c)⟩)
    (Cert.ReferenceIdeal.ValueP.run_after (F := Ideal) m ρ)

/-- The ideal pass rewrote nothing. -/
theorem preserves : Cert.preserves_Kernel_KernelIdeal := trivial

/-- From memories agreeing on real arguments both programs end with the zero column as result. -/
theorem algebraic : Cert.algebraic_KernelIdeal_ReferenceIdeal := by
  intro m ρ m' ρ' hpre hagree
  have hk := fun c : Dev Cert.KernelIdeal.nD => Cert.Finite.reals_of_pre _ _ _ _ _ _ (hpre c)
  refine ⟨fun _ => fun _ => (0 : EReal), ?_, ?_⟩
  · refine (θ_run Cert.KernelIdeal.defs _ _).mono (fun r h c => ⟨?_, ?_, ?_, ?_, ?_, ?_, ?_⟩)
      (Cert.KernelIdeal.Gen.Whole.run_all (F := Ideal) m ρ)
    · exact (h c _ (Cert.KernelIdeal.Gen.mem_uc Cert.KernelIdeal.main_v42 (by decide))).trans
        (funext fun i => Cert.KernelIdeal.Gen.Whole.result_zero m ρ c (hk c).1 (hk c).2.1 (hk c).2.2.1 (hk c).2.2.2.1
          (hk c).2.2.2.2 i)
    · exact (h c _ (Cert.KernelIdeal.Gen.mem_uc Cert.KernelIdeal.main_arg0 (by decide))).trans (Cert.KernelIdeal.Gen.W8_main_arg0 m ρ c)
    · exact (h c _ (Cert.KernelIdeal.Gen.mem_uc Cert.KernelIdeal.main_arg1 (by decide))).trans (Cert.KernelIdeal.Gen.W8_main_arg1 m ρ c)
    · exact (h c _ (Cert.KernelIdeal.Gen.mem_uc Cert.KernelIdeal.main_arg2 (by decide))).trans (Cert.KernelIdeal.Gen.W8_main_arg2 m ρ c)
    · exact (h c _ (Cert.KernelIdeal.Gen.mem_uc Cert.KernelIdeal.main_arg3 (by decide))).trans (Cert.KernelIdeal.Gen.W8_main_arg3 m ρ c)
    · exact (h c _ (Cert.KernelIdeal.Gen.mem_uc Cert.KernelIdeal.main_arg4 (by decide))).trans (Cert.KernelIdeal.Gen.W8_main_arg4 m ρ c)
    · exact (h c _ (Cert.KernelIdeal.Gen.mem_uc Cert.KernelIdeal.main_arg5 (by decide))).trans (Cert.KernelIdeal.Gen.W8_main_arg5 m ρ c)
  · refine (θ_run Cert.ReferenceIdeal.defs _ _).mono (fun r h c => ⟨?_, ?_, ?_, ?_, ?_, ?_, ?_⟩)
      (Cert.ReferenceIdeal.ValueP.run_after (F := Ideal) m' ρ')
    · exact (h c Cert.ReferenceIdeal.main_v66).trans
        (Cert.RefValue.result_zero m' c
          (fun i => Cert.KernelIdeal.Gen.Whole.isReal_of_eq (congrFun (hagree c).1 i) ((hk c).1 i))
          (fun i => Cert.KernelIdeal.Gen.Whole.isReal_of_eq (congrFun (hagree c).2.2.1 i) ((hk c).2.1 i))
          (fun i => Cert.KernelIdeal.Gen.Whole.isReal_of_eq (congrFun (hagree c).2.2.2.1 i) ((hk c).2.2.1 i))
          (fun i => Cert.KernelIdeal.Gen.Whole.isReal_of_eq (congrFun (hagree c).2.2.2.2.1 i) ((hk c).2.2.2.1 i))
          (fun i => Cert.KernelIdeal.Gen.Whole.isReal_of_eq (congrFun (hagree c).2.2.2.2.2 i) ((hk c).2.2.2.2 i)))
    · exact (h c Cert.ReferenceIdeal.main_arg0).trans (Cert.RefValue.kept_arg0 m' c)
    · exact (h c Cert.ReferenceIdeal.main_arg1).trans (Cert.RefValue.kept_arg1 m' c)
    · exact (h c Cert.ReferenceIdeal.main_arg2).trans (Cert.RefValue.kept_arg2 m' c)
    · exact (h c Cert.ReferenceIdeal.main_arg3).trans (Cert.RefValue.kept_arg3 m' c)
    · exact (h c Cert.ReferenceIdeal.main_arg4).trans (Cert.RefValue.kept_arg4 m' c)
    · exact (h c Cert.ReferenceIdeal.main_arg5).trans (Cert.RefValue.kept_arg5 m' c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
